-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x64x64 : Shape := ⟨4, ![2, 256, 64, 64]⟩
abbrev S2x64x64 : Shape := ⟨3, ![2, 64, 64]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

class Facts : Prop where
  shapeCasts_S2x64x64_S8192 : S2x64x64.ShapeCasts S8192
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_

variable [Facts]

def fn {F : FTy → Type} [FloatOps F] (main_arg0 : FVec F S2x256x64x64 .f32) (main_arg1 : IVec S2x64x64 32) : IVec S_ 1 :=
  let main_v0 : IVec S8192 32 := shapeCast S8192 main_arg1 shapeCasts_S2x64x64_S8192
  let main_v1 : FVec F S2x256x64x64 .f32 := Host.absf main_arg0
  let main_cst : FVec F S_ .f32 := constant S_ .f32 0x7F800000#32
  let main_v2 : FVec F S2x256x64x64 .f32 := broadcastInDim S2x256x64x64 ![] bcast_S_S2x256x64x64 main_cst
  let main_v3 : IVec S2x256x64x64 1 := cmpf .olt main_v1 main_v2
  let main_c : IVec S_ 1 := constantI S_ 1 1#1
  let main_v4 : IVec S_ 1 := (fun x v => Host.reduce IntOp.andi x v reducesTo_S2x256x64x64_S_d0_1_2_3 h_S_) main_v3 main_c
  let main_v5 : IVec S8192x1 32 := broadcastInDim S8192x1 ![0] bcast_S8192_S8192x1_0 main_v0
  let main_v6 : IVec S1x8192 32 := broadcastInDim S1x8192 ![1] bcast_S8192_S1x8192_1 main_v0
  let main_v7 : IVec S8192x8192 32 := broadcastInDim S8192x8192 ![0, 1] bcast_S8192x1_S8192x8192_0_1 main_v5
  let main_v8 : IVec S8192x8192 32 := broadcastInDim S8192x8192 ![0, 1] bcast_S1x8192_S8192x8192_0_1 main_v6
  let main_v9 : IVec S8192x8192 1 := cmpi .eq main_v7 main_v8
  let main_c_0 : IVec S_ 1 := constantI S_ 1 1#1
  let main_v10 : IVec S_ 1 := (fun x v => Host.reduce IntOp.andi x v reducesTo_S8192x8192_S_d0_1 h_S_) main_v9 main_c_0
  let main_v11 : IVec S_ 1 := andi main_v4 main_v10
  main_v11
-- ==== Kernel.lean ====
abbrev S2x256x64x64 : Shape := ⟨4, ![2, 256, 64, 64]⟩
abbrev S2x64x64 : Shape := ⟨3, ![2, 64, 64]⟩
abbrev S2x64x64x256 : Shape := ⟨4, ![2, 64, 64, 256]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 23
  | .vmem => 8
  | .smem => 0
  | _ => 0

abbrev bufTy : (tb : Table) → Fin (tcTables nBuf tb) → BufTy
  | .hbm, ⟨0, _⟩ => ⟨S2x256x64x64, .f32⟩
  | .hbm, ⟨1, _⟩ => ⟨S2x64x64, .i32⟩
  | .hbm, ⟨2, _⟩ => ⟨S2x64x64x256, .f32⟩
  | .hbm, ⟨3, _⟩ => ⟨S8192x256, .f32⟩
  | .hbm, ⟨4, _⟩ => ⟨S8192, .i32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S8192x256, .bf16⟩
  | .hbm, ⟨16, _⟩ => ⟨S8192x1, .i32⟩
  | .hbm, ⟨17, _⟩ => ⟨S1x8192, .i32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1024x1, .f32⟩
  | .local _ .vmem, ⟨7, _⟩ => ⟨S1024x1, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2x256x64x64_S2x64x64x256_0_2_3_1 : S2x256x64x64.Transposes [0, 2, 3, 1] S2x64x64x256
  shapeCasts_S2x64x64x256_S8192x256 : S2x64x64x256.ShapeCasts S8192x256
  shapeCasts_S2x64x64_S8192 : S2x64x64.ShapeCasts S8192
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S8192x256_S1024x256_0_0 : ∀ a, (![0, 0] : Fin 2 → Nat) a + S1024x256.size a ≤ S8192x256.size a
  inb_S1x8192_S1x1024_0_0 : ∀ a, (![0, 0] : Fin 2 → Nat) a + S1x1024.size a ≤ S1x8192.size a
  h_S1x1024 : 0 < S1x1024.numel
  shapeCasts_S1x1024_S1x1024 : S1x1024.ShapeCasts S1x1024
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  inb_S8192x256_S1024x256_1024_0 : ∀ a, (![1024, 0] : Fin 2 → Nat) a + S1024x256.size a ≤ S8192x256.size a
  inb_S1x8192_S1x1024_0_1024 : ∀ a, (![0, 1024] : Fin 2 → Nat) a + S1x1024.size a ≤ S1x8192.size a
  inb_S8192x256_S1024x256_2048_0 : ∀ a, (![2048, 0] : Fin 2 → Nat) a + S1024x256.size a ≤ S8192x256.size a
  inb_S1x8192_S1x1024_0_2048 : ∀ a, (![0, 2048] : Fin 2 → Nat) a + S1x1024.size a ≤ S1x8192.size a
  inb_S8192x256_S1024x256_3072_0 : ∀ a, (![3072, 0] : Fin 2 → Nat) a + S1024x256.size a ≤ S8192x256.size a
  inb_S1x8192_S1x1024_0_3072 : ∀ a, (![0, 3072] : Fin 2 → Nat) a + S1x1024.size a ≤ S1x8192.size a
  inb_S8192x256_S1024x256_4096_0 : ∀ a, (![4096, 0] : Fin 2 → Nat) a + S1024x256.size a ≤ S8192x256.size a
  inb_S1x8192_S1x1024_0_4096 : ∀ a, (![0, 4096] : Fin 2 → Nat) a + S1x1024.size a ≤ S1x8192.size a
  inb_S8192x256_S1024x256_5120_0 : ∀ a, (![5120, 0] : Fin 2 → Nat) a + S1024x256.size a ≤ S8192x256.size a
  inb_S1x8192_S1x1024_0_5120 : ∀ a, (![0, 5120] : Fin 2 → Nat) a + S1x1024.size a ≤ S1x8192.size a
  inb_S8192x256_S1024x256_6144_0 : ∀ a, (![6144, 0] : Fin 2 → Nat) a + S1024x256.size a ≤ S8192x256.size a
  inb_S1x8192_S1x1024_0_6144 : ∀ a, (![0, 6144] : Fin 2 → Nat) a + S1x1024.size a ≤ S1x8192.size a
  inb_S8192x256_S1024x256_7168_0 : ∀ a, (![7168, 0] : Fin 2 → Nat) a + S1024x256.size a ≤ S8192x256.size a
  inb_S1x8192_S1x1024_0_7168 : ∀ a, (![0, 7168] : Fin 2 → Nat) a + S1x1024.size a ≤ S1x8192.size a
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x256x64x64 : Shape := ⟨4, ![2, 256, 64, 64]⟩
abbrev S2x64x64 : Shape := ⟨3, ![2, 64, 64]⟩
abbrev S2x64x64x256 : Shape := ⟨4, ![2, 64, 64, 256]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S256x8192 : Shape := ⟨2, ![256, 8192]⟩

abbrev nBuf : Space → Nat
  | .hbm => 42
  | .vmem => 0
  | .smem => 0
  | _ => 0

abbrev bufTy : (tb : Table) → Fin (tcTables nBuf tb) → BufTy
  | .hbm, ⟨0, _⟩ => ⟨S2x256x64x64, .f32⟩
  | .hbm, ⟨1, _⟩ => ⟨S2x64x64, .i32⟩
  | .hbm, ⟨2, _⟩ => ⟨S2x64x64x256, .f32⟩
  | .hbm, ⟨3, _⟩ => ⟨S8192x256, .f32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S256x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  transposes_S2x256x64x64_S2x64x64x256_0_2_3_1 : S2x256x64x64.Transposes [0, 2, 3, 1] S2x64x64x256
  shapeCasts_S2x64x64x256_S8192x256 : S2x64x64x256.ShapeCasts S8192x256
  shapeCasts_S2x64x64_S8192 : S2x64x64.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x256_S8192_d1 : S8192x256.ReducesTo [1] S8192
  h_S_ : 0 < S_.numel
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.StoredBits.lean ====
/-
  The value the kernel body stores into its output block, as ONE function of what it loads: the row tile (1024 rows
  of the normalised features with their labels) and the eight column chunks (1024 rows each, with their labels).
  The body walks the chunks in order carrying two running row sums (of the masked exponentials and of the masked
  logits); the stored column is 8192 · log (sum of exponentials + guard) − (sum of logits).
-/
import proofs.«159952_j47364899340365_2_alg».proof.Proof.Gen.Kernel.Skeleton

noncomputable section

namespace Cert.Kernel.Body

open Idealize.ShloMosaic Cert.Kernel Cert.Kernel.Gen

variable {F : FTy → Type} [FloatOps F]

/-- The stored column from the loads: rows `r` with labels `lr`; chunk `n`'s rows `cn` with labels `ln`. -/
def stored (r : Vec F S1024x256 .bf16) (lr : Vec F S1024x1 .i32)
    (c0 : Vec F S1024x256 .bf16) (l0 : Vec F S1x1024 .i32) (c1 : Vec F S1024x256 .bf16) (l1 : Vec F S1x1024 .i32)
    (c2 : Vec F S1024x256 .bf16) (l2 : Vec F S1x1024 .i32) (c3 : Vec F S1024x256 .bf16) (l3 : Vec F S1x1024 .i32)
    (c4 : Vec F S1024x256 .bf16) (l4 : Vec F S1x1024 .i32) (c5 : Vec F S1024x256 .bf16) (l5 : Vec F S1x1024 .i32)
    (c6 : Vec F S1024x256 .bf16) (l6 : Vec F S1x1024 .i32) (c7 : Vec F S1024x256 .bf16) (l7 : Vec F S1x1024 .i32) :
    FVec F S1024x1 .f32 :=
  let v1 := k0_pay2 r
  let v3 := k0_pay3 (F := F) lr
  let v23 := k0_pay6 r lr c0 l0
  let v27 := k0_pay7 r lr c0 l0
  let v35 := k0_pay8 r c1
  let v38 := k0_pay9 (F := F) lr l1
  let v67 := k0_pay13 v1 v3 v23 v35 v38 c2 l2
  let v71 := k0_pay14 v1 v3 v27 v35 v38 c2 l2
  let v79 := k0_pay15 v1 c3
  let v82 := k0_pay16 (F := F) v3 l3
  let v111 := k0_pay20 v1 v3 v67 v79 v82 c4 l4
  let v115 := k0_pay21 v1 v3 v71 v79 v82 c4 l4
  let v123 := k0_pay22 v1 c5
  let v126 := k0_pay23 (F := F) v3 l5
  let v155 := k0_pay27 v1 v3 v111 v123 v126 c6 l6
  let v159 := k0_pay28 v1 v3 v115 v123 v126 c6 l6
  let v167 := k0_pay29 v1 c7
  let v170 := k0_pay30 (F := F) v3 l7
  k0_pay1 v155 v159 v167 v170

end Cert.Kernel.Body

end
-- ==== Proof.BodyBits.lean ====
/-
  The kernel body at one grid point, and what the pipeline's staging buffers hold around it.

  At grid point t the body is handed five staging buffers: the row tile (rows 1024·t … 1024·t+1023 of the normalised
  features), the WHOLE normalised feature matrix (the same array through a second window whose block never moves),
  the row tile's labels, all the labels, and the output column. It loads the row tile and its labels once, then walks
  the feature matrix and the labels in eight chunks of 1024, and stores one column: what it leaves in the output
  buffer is the one function `stored` of those loads. Every input buffer holds its window's block of the array as the
  region found it, whether or not the pipeline fetched it at this point (a block that never moves is fetched once).
-/
import proofs.«159952_j47364899340365_2_alg».proof.Proof.Gen.Kernel.Launch
import proofs.«159952_j47364899340365_2_alg».proof.Proof.Gen.Kernel.Skeleton
import proofs.«159952_j47364899340365_2_alg».proof.Proof.Gen.Kernel.Points
import proofs.«159952_j47364899340365_2_alg».proof.Proof.StoredBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

abbrev rRows : Rect S1024x256 := Rect.unit (s := S1024x256) ![0, 0] S1024x256.size inb_S1024x256_S1024x256_0_0
abbrev rCol : Rect S1024x1 := Rect.unit (s := S1024x1) ![0, 0] S1024x1.size inb_S1024x1_S1024x1_0_0
abbrev rC0 : Rect S8192x256 := Rect.unit (s := S8192x256) ![0, 0] S1024x256.size inb_S8192x256_S1024x256_0_0
abbrev rC1 : Rect S8192x256 := Rect.unit (s := S8192x256) ![1024, 0] S1024x256.size inb_S8192x256_S1024x256_1024_0
abbrev rC2 : Rect S8192x256 := Rect.unit (s := S8192x256) ![2048, 0] S1024x256.size inb_S8192x256_S1024x256_2048_0
abbrev rC3 : Rect S8192x256 := Rect.unit (s := S8192x256) ![3072, 0] S1024x256.size inb_S8192x256_S1024x256_3072_0
abbrev rC4 : Rect S8192x256 := Rect.unit (s := S8192x256) ![4096, 0] S1024x256.size inb_S8192x256_S1024x256_4096_0
abbrev rC5 : Rect S8192x256 := Rect.unit (s := S8192x256) ![5120, 0] S1024x256.size inb_S8192x256_S1024x256_5120_0
abbrev rC6 : Rect S8192x256 := Rect.unit (s := S8192x256) ![6144, 0] S1024x256.size inb_S8192x256_S1024x256_6144_0
abbrev rC7 : Rect S8192x256 := Rect.unit (s := S8192x256) ![7168, 0] S1024x256.size inb_S8192x256_S1024x256_7168_0
abbrev rL0 : Rect S1x8192 := Rect.unit (s := S1x8192) ![0, 0] S1x1024.size inb_S1x8192_S1x1024_0_0
abbrev rL1 : Rect S1x8192 := Rect.unit (s := S1x8192) ![0, 1024] S1x1024.size inb_S1x8192_S1x1024_0_1024
abbrev rL2 : Rect S1x8192 := Rect.unit (s := S1x8192) ![0, 2048] S1x1024.size inb_S1x8192_S1x1024_0_2048
abbrev rL3 : Rect S1x8192 := Rect.unit (s := S1x8192) ![0, 3072] S1x1024.size inb_S1x8192_S1x1024_0_3072
abbrev rL4 : Rect S1x8192 := Rect.unit (s := S1x8192) ![0, 4096] S1x1024.size inb_S1x8192_S1x1024_0_4096
abbrev rL5 : Rect S1x8192 := Rect.unit (s := S1x8192) ![0, 5120] S1x1024.size inb_S1x8192_S1x1024_0_5120
abbrev rL6 : Rect S1x8192 := Rect.unit (s := S1x8192) ![0, 6144] S1x1024.size inb_S1x8192_S1x1024_0_6144
abbrev rL7 : Rect S1x8192 := Rect.unit (s := S1x8192) ![0, 7168] S1x1024.size inb_S1x8192_S1x1024_0_7168

/-! ## What the body leaves in the output window's buffer -/

/-- The output buffer after the body, from the four input buffers' contents: the one store's column, laid over the
    whole buffer. -/
def outCol (x0 : Vec F S1024x256 .bf16) (x1 : Vec F S8192x256 .bf16) (x2 : Vec F S1024x1 .i32) (x3 : Vec F S1x8192 .i32) :
    Vec F S1024x1 .f32 :=
  View.canon [⟨rCol, stored (View.ld x0 rRows) (View.ld x2 rCol)
    (View.ld x1 rC0) (View.ld x3 rL0) (View.ld x1 rC1) (View.ld x3 rL1) (View.ld x1 rC2) (View.ld x3 rL2)
    (View.ld x1 rC3) (View.ld x3 rL3) (View.ld x1 rC4) (View.ld x3 rL4) (View.ld x1 rC5) (View.ld x3 rL5)
    (View.ld x1 rC6) (View.ld x3 rL6) (View.ld x1 rC7) (View.ld x3 rL7)⟩]

/-- The one store covers the output buffer. -/
theorem cover_col (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

/-! ## The body's triple -/

set_option maxHeartbeats 4000000 in
/-- On whole staging buffers, the inputs' at read contents `x0 … x3` and the output's at anything, the body runs to the
    continuation holding the inputs' as they were and the output's at `outCol` of them. -/
theorem sound_kernel (c : Dev nD) (E : Set ℕ) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .i32) (harg3 : arg3.IsWhole) (arg4 : Memref sig .tc .vmem S1x8192 .i32) (harg4 : arg4.IsWhole)
    (arg5 : Memref sig .tc .vmem S1024x1 .f32) (harg5 : arg5.IsWhole)
    (x0 : Vec F S1024x256 .bf16) (x1 : Vec F S8192x256 .bf16) (x2 : Vec F S1024x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outCol x0 x1 x2 x3)) -∗ K ⟨⟩))
      ⊢ wp frame (wpE (defs₀ (F := F)) Variants.none c none) E (cc0__contrastive_kernel i arg1 harg1 arg2 harg2 arg3 harg3 arg4 harg4 arg5 harg5) K := by
  simp only [cc0__contrastive_kernel_eq_skeleton]; unfold cc0__contrastive_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_col _)

end Cert.Kernel.Body

end
-- ==== Proof.RegionBits.lean ====
/-
  The pipeline's proof data for the one kernel region, at the contents `V` the region finds in the core's buffers.

  Windows 0 and 1 read ONE array (the normalised features): window 0 a tile of 1024 rows that moves with the grid
  point, window 1 the whole array, fetched once. Each holds half of the array's read share. After the body every input
  buffer still holds its block, and the output buffer holds `outCol` of the four input blocks.
-/
import proofs.«159952_j47364899340365_2_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not: a block whose index has not moved
    is still the one the previous point left. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not: a block whose index has not moved
    is still the one the previous point left. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not: a block whose index has not moved
    is still the one the previous point left. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not: a block whose index has not moved
    is still the one the previous point left. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data: the arrays as the region finds them; after the body each input buffer at its block and the output's
    at `outCol` of the input blocks; the shared array read at half shares by its two windows; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outCol (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outCol (iblk V c 0 t) (iblk V c 1 t) (iblk V c 2 t) (iblk V c 3 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation (c : Dev nD) : BodyObligation (dat (F := F) V c) (defs₀ (F := F)) Variants.none () Set.univ := fun t => by
  rw [bigSep_W0, bigSep_W0]
  exact sound_body V c t

end Cert.Kernel.Body

end
-- ==== Proof.FrameBits.lean ====
/-
  The whole run of the program: three stretches of host operations (the layout change, the row norms, the
  normalisation and the label layouts), the kernel region, and the closing stretch (the sum of the per-row column and
  the division by the number of pairs). The contents of the core's buffers are followed stretch by stretch: a host
  stretch leaves what its operations compute; the region leaves every buffer as it found it except the per-row
  column, which ends at what the eight write-backs leave. The feature matrix is read by the region through two windows,
  each holding half of its read share; the halves are joined again at the region's exit.
-/
import proofs.«159952_j47364899340365_2_alg».proof.Proof.RegionBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the layout change. -/
abbrev W1 : Dev nD → Valuation τ sig (Elt F) := fun c => StableHlo.after hostOps0 (W0 m ρ c)
/-- After the row norms. -/
abbrev W2 : Dev nD → Valuation τ sig (Elt F) := fun c => StableHlo.after hostOps0_1 (W1 m ρ c)
/-- After the normalisation and the label layouts: the region's entry. -/
abbrev W3 : Dev nD → Valuation τ sig (Elt F) := fun c => StableHlo.after hostOps0_2 (W2 m ρ c)
/-- The same read at the core's references. -/
abbrev V3 : (c : Dev nD) → (b : Ref sig .tc) → Buf (Elt F) ((c : Thread nD τ).loc b) := fun c b => W3 m ρ c b
/-- At the region's exit: the per-row column at what the write-backs leave, every other buffer as at entry. -/
def W4 (c : Dev nD) : Valuation τ sig (Elt F) :=
  Function.update (W3 m ρ c) (Proc.devRef .tc main_v11) ((dat (V3 m ρ) c).arrAt 4 cfg0.N)
/-- The same read at the core's references. -/
abbrev V4 : (c : Dev nD) → (b : Ref sig .tc) → Buf (Elt F) ((c : Thread nD τ).loc b) := fun c b => W4 m ρ c b
/-- After the closing stretch: the end. -/
abbrev W5 : Dev nD → Valuation τ sig (Elt F) := fun c => StableHlo.after hostOps1 (W4 m ρ c)

theorem W4_out (c : Dev nD) : W4 m ρ c (Proc.devRef .tc main_v11) = (dat (V3 m ρ) c).arrAt 4 cfg0.N := by
  unfold W4; exact Function.update_self _ _ _

theorem W4_of_ne (c : Dev nD) (b : Ref sig .tc) (hb : b ≠ main_v11) : W4 m ρ c (Proc.devRef .tc b) = W3 m ρ c (Proc.devRef .tc b) := by
  unfold W4; exact Function.update_of_ne (StableHlo.devRef_ne_of_ne hb) _ _

/-! ## The region's arrays among the core's buffers -/

section Arrays

variable (V : (c : Dev nD) → (b : Ref sig .tc) → Buf (Elt F) ((c : Thread nD τ).loc b))

theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- The windows' arrays as points-tos of the buffers behind them, each at its window's share. -/
theorem arrays_pts (c : Dev nD) (Fw : (w : Fin cfg0.W) → Buf (Elt F) ((cfg0.win w).arr.view.loc (c : Thread nD τ))) :
    (dat V c).arrays Fw = iprop(
      (((c : Thread nD τ).loc main_v8) ↦{fullShare.left} Fw 0) ∗ (((c : Thread nD τ).loc main_v8) ↦{fullShare.right} Fw 1)
      ∗ (((c : Thread nD τ).loc main_v9) ↦{fullShare} Fw 2) ∗ (((c : Thread nD τ).loc main_v10) ↦{fullShare} Fw 3)
      ∗ (((c : Thread nD τ).loc main_v11) ↦{fullShare} Fw 4)) := by
  unfold Dat.arrays
  rw [bigSep_W0, (arr_whole0 0).set_eq_univ, (arr_whole0 2).set_eq_univ,
    (arr_whole0 3).set_eq_univ, (arr_whole0 4).set_eq_univ, share_0, share_1, share_2, share_3, share_4]

end Arrays

section Join

variable (V : (c : Dev nD) → (b : Ref sig .tc) → Buf (Elt F) ((c : Thread nD τ).loc b))

/-- The distinct buffers behind the windows' arrays, listed. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v8) ↦{fullShare} V' main_v8) ∗ (((c : Thread nD τ).loc main_v9) ↦{fullShare} V' main_v9)
        ∗ (((c : Thread nD τ).loc main_v10) ↦{fullShare} V' main_v10) ∗ (((c : Thread nD τ).loc main_v11) ↦{fullShare} V' main_v11)) := by
  unfold Pipeline.arrBufs
  rw [bigSep_eq_bigSepL_of_eq [main_v8, main_v9, main_v10, main_v11] (by decide) (by decide)]
  rfl

/-- ENTRY: the buffers behind the arrays, whole at the region's entry contents, are the pipeline's arrays — the feature
    matrix's read share split in two halves, one per window that reads it. -/
theorem arrays_of_bufs (c : Dev nD) :
    (Pipeline.arrBufs (Ix := Unit) (Name := ℕ) (U := UR sig nD τ) (Lvl := ℕ) spec0 c (V c) : sProp 𝕄) ⊢ (dat V c).arrays (dat V c).A := by
  rw [arrBufs_list, arrays_pts]
  iintro ⟨H8, H9, H10, H11⟩
  ihave H8' := (pointsTo_share (PosShare.mem_left_op_right fullShare)).1 $$ H8
  icases H8' with ⟨H8l, H8r⟩
  isplitl [H8l]; · iexact H8l
  isplitl [H8r]; · iexact H8r
  isplitl [H9]; · iexact H9
  isplitl [H10]; · iexact H10
  iexact H11

/-- EXIT: the pipeline's arrays at contents `Fw` whose two readings of the feature matrix agree give back the four
    buffers whole. -/
theorem bufs_of_arrays (c : Dev nD) (Fw : (w : Fin cfg0.W) → Buf (Elt F) ((cfg0.win w).arr.view.loc (c : Thread nD τ)))
    (V' : (b : Ref sig .tc) → Buf (Elt F) ((c : Thread nD τ).loc b))
    (h0 : Fw 0 = V' main_v8) (h1 : Fw 1 = V' main_v8) (h2 : Fw 2 = V' main_v9) (h3 : Fw 3 = V' main_v10) (h4 : Fw 4 = V' main_v11) :
    (dat V c).arrays Fw ⊢ (Pipeline.arrBufs (Ix := Unit) (Name := ℕ) (U := UR sig nD τ) (Lvl := ℕ) spec0 c V' : sProp 𝕄) := by
  rw [arrBufs_list, arrays_pts, h0, h1, h2, h3, h4]
  iintro ⟨H8l, H8r, H9, H10, H11⟩
  isplitl [H8l H8r]
  · iapply (pointsTo_share (PosShare.mem_left_op_right fullShare)).2
    isplitl [H8l]; · iexact H8l
    iexact H8r
  isplitl [H9]; · iexact H9
  isplitl [H10]; · iexact H10
  iexact H11

end Join

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over all the core's unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W5 m ρ c) ∗ ∃ r, prngReg c r)

/-- The core's unscoped buffers at the region's entry: the four buffers behind the windows' arrays and the rest. -/
theorem entry_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs (Ix := Unit) (Name := ℕ) (U := UR sig nD τ) (Lvl := ℕ) spec0 c V' : sProp 𝕄)
          ∗ Pipeline.unscopedRest (Ix := Unit) (Name := ℕ) (U := UR sig nD τ) (Lvl := ℕ) spec0 c V') :=
  Pipeline.unscopedBufs_split₀ cfgs 0 (fun w => winFacts₀0.arr_unscoped w) c V'

/-- Off the per-row column the region's exit contents are its entry contents. -/
theorem rest_eq (c : Dev nD) :
    (Pipeline.unscopedRest (Ix := Unit) (Name := ℕ) (U := UR sig nD τ) (Lvl := ℕ) spec0 c (V3 m ρ c) : sProp 𝕄)
      = Pipeline.unscopedRest (Ix := Unit) (Name := ℕ) (U := UR sig nD τ) (Lvl := ℕ) spec0 c (V4 m ρ c) := by
  unfold Pipeline.unscopedRest
  refine bigSep_congr fun b hb => ?_
  have hne : b ≠ main_v11 := fun e => (Finset.mem_sdiff.mp hb).2 (e ▸ (by decide : main_v11 ∈ Finset.univ.image (Pipeline.arrRef spec0)))
  rw [show V4 m ρ c b = V3 m ρ c b from W4_of_ne m ρ c b hne]

/-- EXIT: the arrays at what the pipeline leaves and the bypassing buffers are all the core's unscoped buffers at the
    exit contents. -/
theorem exit_join (c : Dev nD) :
    iprop((dat (V3 m ρ) c).arrays ((dat (V3 m ρ) c).arrAt · cfg0.N)
        ∗ Pipeline.unscopedRest (Ix := Unit) (Name := ℕ) (U := UR sig nD τ) (Lvl := ℕ) spec0 c (V3 m ρ c))
      ⊢ (StableHlo.held (c : Thread nD τ) (Pipeline.ucRefs τ sig) (W4 m ρ c) : sProp 𝕄) := by
  rw [← Pipeline.unscopedBufs_held c (W4 m ρ c), entry_split c (V4 m ρ c), rest_eq m ρ c]
  refine sep_mono ?_ .rfl
  exact bufs_of_arrays (V3 m ρ) c _ (V4 m ρ c)
    ((((dat (V3 m ρ) c).arrAt_in 0 rfl _).trans (A_eq (V3 m ρ) c 0)).trans (W4_of_ne m ρ c main_v8 (by decide)).symm)
    ((((dat (V3 m ρ) c).arrAt_in 1 rfl _).trans (A_eq (V3 m ρ) c 1)).trans (W4_of_ne m ρ c main_v8 (by decide)).symm)
    ((((dat (V3 m ρ) c).arrAt_in 2 rfl _).trans (A_eq (V3 m ρ) c 2)).trans (W4_of_ne m ρ c main_v9 (by decide)).symm)
    ((((dat (V3 m ρ) c).arrAt_in 3 rfl _).trans (A_eq (V3 m ρ) c 3)).trans (W4_of_ne m ρ c main_v10 (by decide)).symm)
    (W4_out m ρ c).symm

set_option backward.isDefEq.respectTransparency.types false in
/-- The kernel region over the thread state: entered from every unscoped buffer at the entry contents, left at the exit
    contents; the generator register into the invariant and out; nothing owed; no semaphore of the kernel's own. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := entry_split (F := F) c (V3 m ρ c)
    rw [Pipeline.unscopedBufs_held] at hsplit
    iintro ⟨⟨Hub, Hp, HO⟩, -, -⟩
    ihave H := (Entails.of_eq hsplit) $$ Hub
    icases H with ⟨Hb, Hrest⟩
    ihave Ha := (arrays_of_bufs (V3 m ρ) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ),
    .host (hseg hostOps1 hostOps1_sub hostOps1_fresh (W4 m ρ)) ]

/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of the core ends at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps1 (W4 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

/-- A reference other than an operation's result is not among what the operation writes. -/
theorem keep_of_ne {x y : Ref sig .tc} (h : x ≠ y) {S : Finset (DevRef τ sig)} (hS : S = {Proc.devRef .tc y}) :
    Proc.devRef (τ := τ) .tc x ∉ S := by
  rw [hS, Finset.mem_singleton]; exact StableHlo.devRef_ne_of_ne h

/-- No host operation writes the features, -/
theorem keep0_arg0 : ∀ op ∈ (hostOps0 : List (HloOp τ sig (Elt F))), Proc.devRef (τ := τ) .tc main_arg0 ∉ op.writes :=
  List.forall_iff_forall_mem.mp ⟨keep_of_ne (by decide) rfl, keep_of_ne (by decide) rfl, keep_of_ne (by decide) rfl⟩
theorem keep1_arg0 : ∀ op ∈ (hostOps0_1 : List (HloOp τ sig (Elt F))), Proc.devRef (τ := τ) .tc main_arg0 ∉ op.writes :=
  List.forall_iff_forall_mem.mp ⟨keep_of_ne (by decide) rfl, keep_of_ne (by decide) rfl, keep_of_ne (by decide) rfl, keep_of_ne (by decide) rfl,
    keep_of_ne (by decide) rfl⟩
theorem keep2_arg0 : ∀ op ∈ (hostOps0_2 : List (HloOp τ sig (Elt F))), Proc.devRef (τ := τ) .tc main_arg0 ∉ op.writes :=
  List.forall_iff_forall_mem.mp ⟨keep_of_ne (by decide) rfl, keep_of_ne (by decide) rfl, keep_of_ne (by decide) rfl, keep_of_ne (by decide) rfl,
    keep_of_ne (by decide) rfl, keep_of_ne (by decide) rfl, keep_of_ne (by decide) rfl, keep_of_ne (by decide) rfl⟩
theorem keep3_arg0 : ∀ op ∈ (hostOps1 : List (HloOp τ sig (Elt F))), Proc.devRef (τ := τ) .tc main_arg0 ∉ op.writes :=
  List.forall_iff_forall_mem.mp ⟨keep_of_ne (by decide) rfl, keep_of_ne (by decide) rfl, keep_of_ne (by decide) rfl, keep_of_ne (by decide) rfl⟩
/-- nor the labels. -/
theorem keep0_arg1 : ∀ op ∈ (hostOps0 : List (HloOp τ sig (Elt F))), Proc.devRef (τ := τ) .tc main_arg1 ∉ op.writes :=
  List.forall_iff_forall_mem.mp ⟨keep_of_ne (by decide) rfl, keep_of_ne (by decide) rfl, keep_of_ne (by decide) rfl⟩
theorem keep1_arg1 : ∀ op ∈ (hostOps0_1 : List (HloOp τ sig (Elt F))), Proc.devRef (τ := τ) .tc main_arg1 ∉ op.writes :=
  List.forall_iff_forall_mem.mp ⟨keep_of_ne (by decide) rfl, keep_of_ne (by decide) rfl, keep_of_ne (by decide) rfl, keep_of_ne (by decide) rfl,
    keep_of_ne (by decide) rfl⟩
theorem keep2_arg1 : ∀ op ∈ (hostOps0_2 : List (HloOp τ sig (Elt F))), Proc.devRef (τ := τ) .tc main_arg1 ∉ op.writes :=
  List.forall_iff_forall_mem.mp ⟨keep_of_ne (by decide) rfl, keep_of_ne (by decide) rfl, keep_of_ne (by decide) rfl, keep_of_ne (by decide) rfl,
    keep_of_ne (by decide) rfl, keep_of_ne (by decide) rfl, keep_of_ne (by decide) rfl, keep_of_ne (by decide) rfl⟩
theorem keep3_arg1 : ∀ op ∈ (hostOps1 : List (HloOp τ sig (Elt F))), Proc.devRef (τ := τ) .tc main_arg1 ∉ op.writes :=
  List.forall_iff_forall_mem.mp ⟨keep_of_ne (by decide) rfl, keep_of_ne (by decide) rfl, keep_of_ne (by decide) rfl, keep_of_ne (by decide) rfl⟩

/-- The features hold at the region's entry what they held at launch, -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ keep2_arg0
    _ = W1 m ρ c (Proc.devRef .tc main_arg0) := StableHlo.after_of_forall_not_mem _ _ keep1_arg0
    _ = W0 m ρ c (Proc.devRef .tc main_arg0) := StableHlo.after_of_forall_not_mem _ _ keep0_arg0
    _ = m ((c : Thread nD τ).loc main_arg0) := rfl
/-- and so do the labels. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem _ _ keep2_arg1
    _ = W1 m ρ c (Proc.devRef .tc main_arg1) := StableHlo.after_of_forall_not_mem _ _ keep1_arg1
    _ = W0 m ρ c (Proc.devRef .tc main_arg1) := StableHlo.after_of_forall_not_mem _ _ keep0_arg1
    _ = m ((c : Thread nD τ).loc main_arg1) := rfl
/-- At the end too. -/
theorem W5_main_arg0 (c : Dev nD) : W5 m ρ c (Proc.devRef .tc main_arg0) = m ((c : Thread nD τ).loc main_arg0) :=
  ((StableHlo.after_of_forall_not_mem _ _ keep3_arg0).trans (W4_of_ne m ρ c main_arg0 (by decide))).trans (W3_main_arg0 m ρ c)
theorem W5_main_arg1 (c : Dev nD) : W5 m ρ c (Proc.devRef .tc main_arg1) = m ((c : Thread nD τ).loc main_arg1) :=
  ((StableHlo.after_of_forall_not_mem _ _ keep3_arg1).trans (W4_of_ne m ρ c main_arg1 (by decide))).trans (W3_main_arg1 m ρ c)

/-- THE FRAME: the program runs to the end, nothing faulting, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Body

end
-- ==== Proof.StoredIdeal.lean ====
/-
  The value the kernel body stores into its output block, as ONE function of what it loads: the row tile (1024 rows
  of the normalised features with their labels) and the eight column chunks (1024 rows each, with their labels).
  The body walks the chunks in order carrying two running row sums (of the masked exponentials and of the masked
  logits); the stored column is 8192 · log (sum of exponentials + guard) − (sum of logits).
-/
import proofs.«159952_j47364899340365_2_alg».proof.Proof.Gen.KernelIdeal.Skeleton

noncomputable section

namespace Cert.KernelIdeal.Body

open Idealize.ShloMosaic Cert.KernelIdeal Cert.KernelIdeal.Gen

variable {F : FTy → Type} [FloatOps F] [Named F]

/-- The stored column from the loads: rows `r` with labels `lr`; chunk `n`'s rows `cn` with labels `ln`. -/
def stored (r : Vec F S1024x256 .bf16) (lr : Vec F S1024x1 .i32)
    (c0 : Vec F S1024x256 .bf16) (l0 : Vec F S1x1024 .i32) (c1 : Vec F S1024x256 .bf16) (l1 : Vec F S1x1024 .i32)
    (c2 : Vec F S1024x256 .bf16) (l2 : Vec F S1x1024 .i32) (c3 : Vec F S1024x256 .bf16) (l3 : Vec F S1x1024 .i32)
    (c4 : Vec F S1024x256 .bf16) (l4 : Vec F S1x1024 .i32) (c5 : Vec F S1024x256 .bf16) (l5 : Vec F S1x1024 .i32)
    (c6 : Vec F S1024x256 .bf16) (l6 : Vec F S1x1024 .i32) (c7 : Vec F S1024x256 .bf16) (l7 : Vec F S1x1024 .i32) :
    FVec F S1024x1 .f32 :=
  let v1 := k0_pay2 r
  let v3 := k0_pay3 (F := F) lr
  let v23 := k0_pay6 r lr c0 l0
  let v27 := k0_pay7 r lr c0 l0
  let v35 := k0_pay8 r c1
  let v38 := k0_pay9 (F := F) lr l1
  let v67 := k0_pay13 v1 v3 v23 v35 v38 c2 l2
  let v71 := k0_pay14 v1 v3 v27 v35 v38 c2 l2
  let v79 := k0_pay15 v1 c3
  let v82 := k0_pay16 (F := F) v3 l3
  let v111 := k0_pay20 v1 v3 v67 v79 v82 c4 l4
  let v115 := k0_pay21 v1 v3 v71 v79 v82 c4 l4
  let v123 := k0_pay22 v1 c5
  let v126 := k0_pay23 (F := F) v3 l5
  let v155 := k0_pay27 v1 v3 v111 v123 v126 c6 l6
  let v159 := k0_pay28 v1 v3 v115 v123 v126 c6 l6
  let v167 := k0_pay29 v1 c7
  let v170 := k0_pay30 (F := F) v3 l7
  k0_pay1 v155 v159 v167 v170

end Cert.KernelIdeal.Body

end
-- ==== Proof.BodyIdeal.lean ====
/-
  The kernel body at one grid point, and what the pipeline's staging buffers hold around it.

  At grid point t the body is handed five staging buffers: the row tile (rows 1024·t … 1024·t+1023 of the normalised
  features), the WHOLE normalised feature matrix (the same array through a second window whose block never moves),
  the row tile's labels, all the labels, and the output column. It loads the row tile and its labels once, then walks
  the feature matrix and the labels in eight chunks of 1024, and stores one column: what it leaves in the output
  buffer is the one function `stored` of those loads. Every input buffer holds its window's block of the array as the
  region found it, whether or not the pipeline fetched it at this point (a block that never moves is fetched once).
-/
import proofs.«159952_j47364899340365_2_alg».proof.Proof.Gen.KernelIdeal.Launch
import proofs.«159952_j47364899340365_2_alg».proof.Proof.Gen.KernelIdeal.Skeleton
import proofs.«159952_j47364899340365_2_alg».proof.Proof.Gen.KernelIdeal.Points
import proofs.«159952_j47364899340365_2_alg».proof.Proof.StoredIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes through -/

abbrev rRows : Rect S1024x256 := Rect.unit (s := S1024x256) ![0, 0] S1024x256.size inb_S1024x256_S1024x256_0_0
abbrev rCol : Rect S1024x1 := Rect.unit (s := S1024x1) ![0, 0] S1024x1.size inb_S1024x1_S1024x1_0_0
abbrev rC0 : Rect S8192x256 := Rect.unit (s := S8192x256) ![0, 0] S1024x256.size inb_S8192x256_S1024x256_0_0
abbrev rC1 : Rect S8192x256 := Rect.unit (s := S8192x256) ![1024, 0] S1024x256.size inb_S8192x256_S1024x256_1024_0
abbrev rC2 : Rect S8192x256 := Rect.unit (s := S8192x256) ![2048, 0] S1024x256.size inb_S8192x256_S1024x256_2048_0
abbrev rC3 : Rect S8192x256 := Rect.unit (s := S8192x256) ![3072, 0] S1024x256.size inb_S8192x256_S1024x256_3072_0
abbrev rC4 : Rect S8192x256 := Rect.unit (s := S8192x256) ![4096, 0] S1024x256.size inb_S8192x256_S1024x256_4096_0
abbrev rC5 : Rect S8192x256 := Rect.unit (s := S8192x256) ![5120, 0] S1024x256.size inb_S8192x256_S1024x256_5120_0
abbrev rC6 : Rect S8192x256 := Rect.unit (s := S8192x256) ![6144, 0] S1024x256.size inb_S8192x256_S1024x256_6144_0
abbrev rC7 : Rect S8192x256 := Rect.unit (s := S8192x256) ![7168, 0] S1024x256.size inb_S8192x256_S1024x256_7168_0
abbrev rL0 : Rect S1x8192 := Rect.unit (s := S1x8192) ![0, 0] S1x1024.size inb_S1x8192_S1x1024_0_0
abbrev rL1 : Rect S1x8192 := Rect.unit (s := S1x8192) ![0, 1024] S1x1024.size inb_S1x8192_S1x1024_0_1024
abbrev rL2 : Rect S1x8192 := Rect.unit (s := S1x8192) ![0, 2048] S1x1024.size inb_S1x8192_S1x1024_0_2048
abbrev rL3 : Rect S1x8192 := Rect.unit (s := S1x8192) ![0, 3072] S1x1024.size inb_S1x8192_S1x1024_0_3072
abbrev rL4 : Rect S1x8192 := Rect.unit (s := S1x8192) ![0, 4096] S1x1024.size inb_S1x8192_S1x1024_0_4096
abbrev rL5 : Rect S1x8192 := Rect.unit (s := S1x8192) ![0, 5120] S1x1024.size inb_S1x8192_S1x1024_0_5120
abbrev rL6 : Rect S1x8192 := Rect.unit (s := S1x8192) ![0, 6144] S1x1024.size inb_S1x8192_S1x1024_0_6144
abbrev rL7 : Rect S1x8192 := Rect.unit (s := S1x8192) ![0, 7168] S1x1024.size inb_S1x8192_S1x1024_0_7168

/-! ## What the body leaves in the output window's buffer -/

/-- The output buffer after the body, from the four input buffers' contents: the one store's column, laid over the
    whole buffer. -/
def outCol (x0 : Vec F S1024x256 .bf16) (x1 : Vec F S8192x256 .bf16) (x2 : Vec F S1024x1 .i32) (x3 : Vec F S1x8192 .i32) :
    Vec F S1024x1 .f32 :=
  View.canon [⟨rCol, stored (View.ld x0 rRows) (View.ld x2 rCol)
    (View.ld x1 rC0) (View.ld x3 rL0) (View.ld x1 rC1) (View.ld x3 rL1) (View.ld x1 rC2) (View.ld x3 rL2)
    (View.ld x1 rC3) (View.ld x3 rL3) (View.ld x1 rC4) (View.ld x3 rL4) (View.ld x1 rC5) (View.ld x3 rL5)
    (View.ld x1 rC6) (View.ld x3 rL6) (View.ld x1 rC7) (View.ld x3 rL7)⟩]

/-- The one store covers the output buffer. -/
theorem cover_col (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

/-! ## The body's triple -/

set_option maxHeartbeats 4000000 in
/-- On whole staging buffers, the inputs' at read contents `x0 … x3` and the output's at anything, the body runs to the
    continuation holding the inputs' as they were and the output's at `outCol` of them. -/
theorem sound_kernel (c : Dev nD) (E : Set ℕ) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .i32) (harg3 : arg3.IsWhole) (arg4 : Memref sig .tc .vmem S1x8192 .i32) (harg4 : arg4.IsWhole)
    (arg5 : Memref sig .tc .vmem S1024x1 .f32) (harg5 : arg5.IsWhole)
    (x0 : Vec F S1024x256 .bf16) (x1 : Vec F S8192x256 .bf16) (x2 : Vec F S1024x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outCol x0 x1 x2 x3)) -∗ K ⟨⟩))
      ⊢ wp frame (wpE (defs₀ (F := F)) Variants.none c none) E (cc0__contrastive_kernel i arg1 harg1 arg2 harg2 arg3 harg3 arg4 harg4 arg5 harg5) K := by
  simp only [cc0__contrastive_kernel_eq_skeleton]; unfold cc0__contrastive_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_col _)

end Cert.KernelIdeal.Body

end
-- ==== Proof.RegionIdeal.lean ====
/-
  The pipeline's proof data for the one kernel region, at the contents `V` the region finds in the core's buffers.

  Windows 0 and 1 read ONE array (the normalised features): window 0 a tile of 1024 rows that moves with the grid
  point, window 1 the whole array, fetched once. Each holds half of the array's read share. After the body every input
  buffer still holds its block, and the output buffer holds `outCol` of the four input blocks.
-/
import proofs.«159952_j47364899340365_2_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not: a block whose index has not moved
    is still the one the previous point left. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not: a block whose index has not moved
    is still the one the previous point left. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not: a block whose index has not moved
    is still the one the previous point left. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not: a block whose index has not moved
    is still the one the previous point left. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data: the arrays as the region finds them; after the body each input buffer at its block and the output's
    at `outCol` of the input blocks; the shared array read at half shares by its two windows; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outCol (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outCol (iblk V c 0 t) (iblk V c 1 t) (iblk V c 2 t) (iblk V c 3 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation (c : Dev nD) : BodyObligation (dat (F := F) V c) (defs₀ (F := F)) Variants.none () Set.univ := fun t => by
  rw [bigSep_W0, bigSep_W0]
  exact sound_body V c t

end Cert.KernelIdeal.Body

end
-- ==== Proof.FrameIdeal.lean ====
/-
  The whole run of the program: three stretches of host operations (the layout change, the row norms, the
  normalisation and the label layouts), the kernel region, and the closing stretch (the sum of the per-row column and
  the division by the number of pairs). The contents of the core's buffers are followed stretch by stretch: a host
  stretch leaves what its operations compute; the region leaves every buffer as it found it except the per-row
  column, which ends at what the eight write-backs leave. The feature matrix is read by the region through two windows,
  each holding half of its read share; the halves are joined again at the region's exit.
-/
import proofs.«159952_j47364899340365_2_alg».proof.Proof.RegionIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the layout change. -/
abbrev W1 : Dev nD → Valuation τ sig (Elt F) := fun c => StableHlo.after hostOps0 (W0 m ρ c)
/-- After the row norms. -/
abbrev W2 : Dev nD → Valuation τ sig (Elt F) := fun c => StableHlo.after hostOps0_1 (W1 m ρ c)
/-- After the normalisation and the label layouts: the region's entry. -/
abbrev W3 : Dev nD → Valuation τ sig (Elt F) := fun c => StableHlo.after hostOps0_2 (W2 m ρ c)
/-- The same read at the core's references. -/
abbrev V3 : (c : Dev nD) → (b : Ref sig .tc) → Buf (Elt F) ((c : Thread nD τ).loc b) := fun c b => W3 m ρ c b
/-- At the region's exit: the per-row column at what the write-backs leave, every other buffer as at entry. -/
def W4 (c : Dev nD) : Valuation τ sig (Elt F) :=
  Function.update (W3 m ρ c) (Proc.devRef .tc main_v11) ((dat (V3 m ρ) c).arrAt 4 cfg0.N)
/-- The same read at the core's references. -/
abbrev V4 : (c : Dev nD) → (b : Ref sig .tc) → Buf (Elt F) ((c : Thread nD τ).loc b) := fun c b => W4 m ρ c b
/-- After the closing stretch: the end. -/
abbrev W5 : Dev nD → Valuation τ sig (Elt F) := fun c => StableHlo.after hostOps1 (W4 m ρ c)

theorem W4_out (c : Dev nD) : W4 m ρ c (Proc.devRef .tc main_v11) = (dat (V3 m ρ) c).arrAt 4 cfg0.N := by
  unfold W4; exact Function.update_self _ _ _

theorem W4_of_ne (c : Dev nD) (b : Ref sig .tc) (hb : b ≠ main_v11) : W4 m ρ c (Proc.devRef .tc b) = W3 m ρ c (Proc.devRef .tc b) := by
  unfold W4; exact Function.update_of_ne (StableHlo.devRef_ne_of_ne hb) _ _

/-! ## The region's arrays among the core's buffers -/

section Arrays

variable (V : (c : Dev nD) → (b : Ref sig .tc) → Buf (Elt F) ((c : Thread nD τ).loc b))

theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- The windows' arrays as points-tos of the buffers behind them, each at its window's share. -/
theorem arrays_pts (c : Dev nD) (Fw : (w : Fin cfg0.W) → Buf (Elt F) ((cfg0.win w).arr.view.loc (c : Thread nD τ))) :
    (dat V c).arrays Fw = iprop(
      (((c : Thread nD τ).loc main_v8) ↦{fullShare.left} Fw 0) ∗ (((c : Thread nD τ).loc main_v8) ↦{fullShare.right} Fw 1)
      ∗ (((c : Thread nD τ).loc main_v9) ↦{fullShare} Fw 2) ∗ (((c : Thread nD τ).loc main_v10) ↦{fullShare} Fw 3)
      ∗ (((c : Thread nD τ).loc main_v11) ↦{fullShare} Fw 4)) := by
  unfold Dat.arrays
  rw [bigSep_W0, (arr_whole0 0).set_eq_univ, (arr_whole0 2).set_eq_univ,
    (arr_whole0 3).set_eq_univ, (arr_whole0 4).set_eq_univ, share_0, share_1, share_2, share_3, share_4]

end Arrays

section Join

variable (V : (c : Dev nD) → (b : Ref sig .tc) → Buf (Elt F) ((c : Thread nD τ).loc b))

/-- The distinct buffers behind the windows' arrays, listed. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v8) ↦{fullShare} V' main_v8) ∗ (((c : Thread nD τ).loc main_v9) ↦{fullShare} V' main_v9)
        ∗ (((c : Thread nD τ).loc main_v10) ↦{fullShare} V' main_v10) ∗ (((c : Thread nD τ).loc main_v11) ↦{fullShare} V' main_v11)) := by
  unfold Pipeline.arrBufs
  rw [bigSep_eq_bigSepL_of_eq [main_v8, main_v9, main_v10, main_v11] (by decide) (by decide)]
  rfl

/-- ENTRY: the buffers behind the arrays, whole at the region's entry contents, are the pipeline's arrays — the feature
    matrix's read share split in two halves, one per window that reads it. -/
theorem arrays_of_bufs (c : Dev nD) :
    (Pipeline.arrBufs (Ix := Unit) (Name := ℕ) (U := UR sig nD τ) (Lvl := ℕ) spec0 c (V c) : sProp 𝕄) ⊢ (dat V c).arrays (dat V c).A := by
  rw [arrBufs_list, arrays_pts]
  iintro ⟨H8, H9, H10, H11⟩
  ihave H8' := (pointsTo_share (PosShare.mem_left_op_right fullShare)).1 $$ H8
  icases H8' with ⟨H8l, H8r⟩
  isplitl [H8l]; · iexact H8l
  isplitl [H8r]; · iexact H8r
  isplitl [H9]; · iexact H9
  isplitl [H10]; · iexact H10
  iexact H11

/-- EXIT: the pipeline's arrays at contents `Fw` whose two readings of the feature matrix agree give back the four
    buffers whole. -/
theorem bufs_of_arrays (c : Dev nD) (Fw : (w : Fin cfg0.W) → Buf (Elt F) ((cfg0.win w).arr.view.loc (c : Thread nD τ)))
    (V' : (b : Ref sig .tc) → Buf (Elt F) ((c : Thread nD τ).loc b))
    (h0 : Fw 0 = V' main_v8) (h1 : Fw 1 = V' main_v8) (h2 : Fw 2 = V' main_v9) (h3 : Fw 3 = V' main_v10) (h4 : Fw 4 = V' main_v11) :
    (dat V c).arrays Fw ⊢ (Pipeline.arrBufs (Ix := Unit) (Name := ℕ) (U := UR sig nD τ) (Lvl := ℕ) spec0 c V' : sProp 𝕄) := by
  rw [arrBufs_list, arrays_pts, h0, h1, h2, h3, h4]
  iintro ⟨H8l, H8r, H9, H10, H11⟩
  isplitl [H8l H8r]
  · iapply (pointsTo_share (PosShare.mem_left_op_right fullShare)).2
    isplitl [H8l]; · iexact H8l
    iexact H8r
  isplitl [H9]; · iexact H9
  isplitl [H10]; · iexact H10
  iexact H11

end Join

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over all the core's unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W5 m ρ c) ∗ ∃ r, prngReg c r)

/-- The core's unscoped buffers at the region's entry: the four buffers behind the windows' arrays and the rest. -/
theorem entry_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs (Ix := Unit) (Name := ℕ) (U := UR sig nD τ) (Lvl := ℕ) spec0 c V' : sProp 𝕄)
          ∗ Pipeline.unscopedRest (Ix := Unit) (Name := ℕ) (U := UR sig nD τ) (Lvl := ℕ) spec0 c V') :=
  Pipeline.unscopedBufs_split₀ cfgs 0 (fun w => winFacts₀0.arr_unscoped w) c V'

/-- Off the per-row column the region's exit contents are its entry contents. -/
theorem rest_eq (c : Dev nD) :
    (Pipeline.unscopedRest (Ix := Unit) (Name := ℕ) (U := UR sig nD τ) (Lvl := ℕ) spec0 c (V3 m ρ c) : sProp 𝕄)
      = Pipeline.unscopedRest (Ix := Unit) (Name := ℕ) (U := UR sig nD τ) (Lvl := ℕ) spec0 c (V4 m ρ c) := by
  unfold Pipeline.unscopedRest
  refine bigSep_congr fun b hb => ?_
  have hne : b ≠ main_v11 := fun e => (Finset.mem_sdiff.mp hb).2 (e ▸ (by decide : main_v11 ∈ Finset.univ.image (Pipeline.arrRef spec0)))
  rw [show V4 m ρ c b = V3 m ρ c b from W4_of_ne m ρ c b hne]

/-- EXIT: the arrays at what the pipeline leaves and the bypassing buffers are all the core's unscoped buffers at the
    exit contents. -/
theorem exit_join (c : Dev nD) :
    iprop((dat (V3 m ρ) c).arrays ((dat (V3 m ρ) c).arrAt · cfg0.N)
        ∗ Pipeline.unscopedRest (Ix := Unit) (Name := ℕ) (U := UR sig nD τ) (Lvl := ℕ) spec0 c (V3 m ρ c))
      ⊢ (StableHlo.held (c : Thread nD τ) (Pipeline.ucRefs τ sig) (W4 m ρ c) : sProp 𝕄) := by
  rw [← Pipeline.unscopedBufs_held c (W4 m ρ c), entry_split c (V4 m ρ c), rest_eq m ρ c]
  refine sep_mono ?_ .rfl
  exact bufs_of_arrays (V3 m ρ) c _ (V4 m ρ c)
    ((((dat (V3 m ρ) c).arrAt_in 0 rfl _).trans (A_eq (V3 m ρ) c 0)).trans (W4_of_ne m ρ c main_v8 (by decide)).symm)
    ((((dat (V3 m ρ) c).arrAt_in 1 rfl _).trans (A_eq (V3 m ρ) c 1)).trans (W4_of_ne m ρ c main_v8 (by decide)).symm)
    ((((dat (V3 m ρ) c).arrAt_in 2 rfl _).trans (A_eq (V3 m ρ) c 2)).trans (W4_of_ne m ρ c main_v9 (by decide)).symm)
    ((((dat (V3 m ρ) c).arrAt_in 3 rfl _).trans (A_eq (V3 m ρ) c 3)).trans (W4_of_ne m ρ c main_v10 (by decide)).symm)
    (W4_out m ρ c).symm

set_option backward.isDefEq.respectTransparency.types false in
/-- The kernel region over the thread state: entered from every unscoped buffer at the entry contents, left at the exit
    contents; the generator register into the invariant and out; nothing owed; no semaphore of the kernel's own. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := entry_split (F := F) c (V3 m ρ c)
    rw [Pipeline.unscopedBufs_held] at hsplit
    iintro ⟨⟨Hub, Hp, HO⟩, -, -⟩
    ihave H := (Entails.of_eq hsplit) $$ Hub
    icases H with ⟨Hb, Hrest⟩
    ihave Ha := (arrays_of_bufs (V3 m ρ) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ),
    .host (hseg hostOps1 hostOps1_sub hostOps1_fresh (W4 m ρ)) ]

/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of the core ends at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps1 (W4 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

/-- A reference other than an operation's result is not among what the operation writes. -/
theorem keep_of_ne {x y : Ref sig .tc} (h : x ≠ y) {S : Finset (DevRef τ sig)} (hS : S = {Proc.devRef .tc y}) :
    Proc.devRef (τ := τ) .tc x ∉ S := by
  rw [hS, Finset.mem_singleton]; exact StableHlo.devRef_ne_of_ne h

/-- No host operation writes the features, -/
theorem keep0_arg0 : ∀ op ∈ (hostOps0 : List (HloOp τ sig (Elt F))), Proc.devRef (τ := τ) .tc main_arg0 ∉ op.writes :=
  List.forall_iff_forall_mem.mp ⟨keep_of_ne (by decide) rfl, keep_of_ne (by decide) rfl, keep_of_ne (by decide) rfl⟩
theorem keep1_arg0 : ∀ op ∈ (hostOps0_1 : List (HloOp τ sig (Elt F))), Proc.devRef (τ := τ) .tc main_arg0 ∉ op.writes :=
  List.forall_iff_forall_mem.mp ⟨keep_of_ne (by decide) rfl, keep_of_ne (by decide) rfl, keep_of_ne (by decide) rfl, keep_of_ne (by decide) rfl,
    keep_of_ne (by decide) rfl⟩
theorem keep2_arg0 : ∀ op ∈ (hostOps0_2 : List (HloOp τ sig (Elt F))), Proc.devRef (τ := τ) .tc main_arg0 ∉ op.writes :=
  List.forall_iff_forall_mem.mp ⟨keep_of_ne (by decide) rfl, keep_of_ne (by decide) rfl, keep_of_ne (by decide) rfl, keep_of_ne (by decide) rfl,
    keep_of_ne (by decide) rfl, keep_of_ne (by decide) rfl, keep_of_ne (by decide) rfl, keep_of_ne (by decide) rfl⟩
theorem keep3_arg0 : ∀ op ∈ (hostOps1 : List (HloOp τ sig (Elt F))), Proc.devRef (τ := τ) .tc main_arg0 ∉ op.writes :=
  List.forall_iff_forall_mem.mp ⟨keep_of_ne (by decide) rfl, keep_of_ne (by decide) rfl, keep_of_ne (by decide) rfl, keep_of_ne (by decide) rfl⟩
/-- nor the labels. -/
theorem keep0_arg1 : ∀ op ∈ (hostOps0 : List (HloOp τ sig (Elt F))), Proc.devRef (τ := τ) .tc main_arg1 ∉ op.writes :=
  List.forall_iff_forall_mem.mp ⟨keep_of_ne (by decide) rfl, keep_of_ne (by decide) rfl, keep_of_ne (by decide) rfl⟩
theorem keep1_arg1 : ∀ op ∈ (hostOps0_1 : List (HloOp τ sig (Elt F))), Proc.devRef (τ := τ) .tc main_arg1 ∉ op.writes :=
  List.forall_iff_forall_mem.mp ⟨keep_of_ne (by decide) rfl, keep_of_ne (by decide) rfl, keep_of_ne (by decide) rfl, keep_of_ne (by decide) rfl,
    keep_of_ne (by decide) rfl⟩
theorem keep2_arg1 : ∀ op ∈ (hostOps0_2 : List (HloOp τ sig (Elt F))), Proc.devRef (τ := τ) .tc main_arg1 ∉ op.writes :=
  List.forall_iff_forall_mem.mp ⟨keep_of_ne (by decide) rfl, keep_of_ne (by decide) rfl, keep_of_ne (by decide) rfl, keep_of_ne (by decide) rfl,
    keep_of_ne (by decide) rfl, keep_of_ne (by decide) rfl, keep_of_ne (by decide) rfl, keep_of_ne (by decide) rfl⟩
theorem keep3_arg1 : ∀ op ∈ (hostOps1 : List (HloOp τ sig (Elt F))), Proc.devRef (τ := τ) .tc main_arg1 ∉ op.writes :=
  List.forall_iff_forall_mem.mp ⟨keep_of_ne (by decide) rfl, keep_of_ne (by decide) rfl, keep_of_ne (by decide) rfl, keep_of_ne (by decide) rfl⟩

/-- The features hold at the region's entry what they held at launch, -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ keep2_arg0
    _ = W1 m ρ c (Proc.devRef .tc main_arg0) := StableHlo.after_of_forall_not_mem _ _ keep1_arg0
    _ = W0 m ρ c (Proc.devRef .tc main_arg0) := StableHlo.after_of_forall_not_mem _ _ keep0_arg0
    _ = m ((c : Thread nD τ).loc main_arg0) := rfl
/-- and so do the labels. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem _ _ keep2_arg1
    _ = W1 m ρ c (Proc.devRef .tc main_arg1) := StableHlo.after_of_forall_not_mem _ _ keep1_arg1
    _ = W0 m ρ c (Proc.devRef .tc main_arg1) := StableHlo.after_of_forall_not_mem _ _ keep0_arg1
    _ = m ((c : Thread nD τ).loc main_arg1) := rfl
/-- At the end too. -/
theorem W5_main_arg0 (c : Dev nD) : W5 m ρ c (Proc.devRef .tc main_arg0) = m ((c : Thread nD τ).loc main_arg0) :=
  ((StableHlo.after_of_forall_not_mem _ _ keep3_arg0).trans (W4_of_ne m ρ c main_arg0 (by decide))).trans (W3_main_arg0 m ρ c)
theorem W5_main_arg1 (c : Dev nD) : W5 m ρ c (Proc.devRef .tc main_arg1) = m ((c : Thread nD τ).loc main_arg1) :=
  ((StableHlo.after_of_forall_not_mem _ _ keep3_arg1).trans (W4_of_ne m ρ c main_arg1 (by decide))).trans (W3_main_arg1 m ρ c)

/-- THE FRAME: the program runs to the end, nothing faulting, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Body

end
-- ==== Proof.BodyForm.lean ====
/-
  The column the kernel body stores, written with a handful of named block operations: the block of logits of the
  row tile against a column chunk, the same-label mask of the row labels against a chunk's labels, a block's row sums
  kept as a column, the two running sums' update by a chunk, and the final combination
  8192 · log (sum of exponentials + guard) − (sum of logits). Every equation here holds by unfolding definitions.
-/
import proofs.«159952_j47364899340365_2_alg».proof.Proof.StoredIdeal

noncomputable section

namespace Cert.KernelIdeal.BodyValue

open Idealize.ShloMosaic Cert.KernelIdeal Cert.KernelIdeal.Gen

/-- The block of logits: the row tile times the transposed chunk, scaled by the reciprocal temperature. -/
def logitsB (a : FVec Ideal S1024x256 .bf16) (c : FVec Ideal S1024x256 .bf16) : FVec Ideal S1024x1024 .f32 :=
  mulf (matmul dot_S1024x256_S256x1024_S1024x1024_1_0_0_1_n_n none a
      (transpose S256x1024 [1, 0] (shapeCast S1024x256 c shapeCasts_S1024x256_S1024x256) transposes_S1024x256_p1_0_S256x1024)
      (constant S1024x1024 .f32 0x00000000#32))
    (broadcast S1024x1024 (Named.named (F := Ideal) κ "inv_temperature" (φ := .f32) 0x41200000#32))

/-- The comparison of every row label with every label of a chunk. -/
def maskW (lr : IVec S1024x1 32) (l : IVec S1x1024 32) : IVec S1024x1024 1 :=
  cmpi .eq (broadcastTo S1024x1024 lr broadcasts_S1024x1_S1024x1024)
    (broadcastTo S1024x1024 (shapeCast S1x1024 l shapeCasts_S1x1024_S1x1024) broadcasts_S1x1024_S1024x1024)

/-- A block of truth words read as floats. -/
def maskF (m : IVec S1024x1024 1) : FVec Ideal S1024x1024 .f32 := sitofp .f32 (extui 32 m natLt_1_32)

/-- A block's row sums, kept as a column. -/
def rowsum (v : FVec Ideal S1024x1024 .f32) : FVec Ideal S1024x1 .f32 :=
  shapeCast S1024x1 (multiReduction .add [1] S1024 v 0x00000000#32 reduces_S1024x1024_S1024 (.inl rfl) rfl)
    shapeCasts_S1024_S1024x1

/-- The running sum of masked exponentials after one more chunk. -/
def accE (acc : FVec Ideal S1024x1 .f32) (L M : FVec Ideal S1024x1024 .f32) : FVec Ideal S1024x1 .f32 :=
  addf acc (rowsum (mulf (exp L) M))

/-- The running sum of masked logits after one more chunk. -/
def accL (acc : FVec Ideal S1024x1 .f32) (L M : FVec Ideal S1024x1024 .f32) : FVec Ideal S1024x1 .f32 :=
  addf acc (rowsum (mulf L M))

/-- The column of zeros both running sums start from. -/
def zeroCol : FVec Ideal S1024x1 .f32 := broadcast S1024x1 (Scalar.ofBits .f32 0x00000000#32)

/-- The last chunk's update of both sums and the final combination. -/
def finish (vE vL : FVec Ideal S1024x1 .f32) (L M : FVec Ideal S1024x1024 .f32) : FVec Ideal S1024x1 .f32 :=
  subf (mulf (broadcast S1024x1 (Scalar.ofBits .f32 0x46000000#32))
      (log (addf (accE vE L M) (broadcast S1024x1 (Scalar.ofBits .f32 0x358637BD#32)))))
    (accL vL L M)

section
variable (r v1 c : FVec Ideal S1024x256 .bf16) (lr v3 : IVec S1024x1 32) (l : IVec S1x1024 32)
  (vE vL : FVec Ideal S1024x1 .f32) (L : FVec Ideal S1024x1024 .f32) (m : IVec S1024x1024 1)

theorem pay4_eq : k0_pay4 (F := Ideal) r c = logitsB (k0_pay2 r) c := rfl
theorem pay5_eq : k0_pay5 (F := Ideal) lr l = maskF (maskW (k0_pay3 (F := Ideal) lr) l) := rfl
theorem pay6_eq : k0_pay6 (F := Ideal) r lr c l
    = accE zeroCol (logitsB (k0_pay2 r) c) (maskF (maskW (k0_pay3 (F := Ideal) lr) l)) := rfl
theorem pay7_eq : k0_pay7 (F := Ideal) r lr c l
    = accL zeroCol (logitsB (k0_pay2 r) c) (maskF (maskW (k0_pay3 (F := Ideal) lr) l)) := rfl
theorem pay8_eq : k0_pay8 (F := Ideal) r c = logitsB (k0_pay2 r) c := rfl
theorem pay9_eq : k0_pay9 (F := Ideal) lr l = maskW (k0_pay3 (F := Ideal) lr) l := rfl
theorem pay13_eq : k0_pay13 (F := Ideal) v1 v3 vE L m c l
    = accE (accE vE L (maskF m)) (logitsB v1 c) (maskF (maskW v3 l)) := rfl
theorem pay14_eq : k0_pay14 (F := Ideal) v1 v3 vL L m c l
    = accL (accL vL L (maskF m)) (logitsB v1 c) (maskF (maskW v3 l)) := rfl
theorem pay15_eq : k0_pay15 (F := Ideal) v1 c = logitsB v1 c := rfl
theorem pay16_eq : k0_pay16 (F := Ideal) v3 l = maskW v3 l := rfl
theorem pay20_eq : k0_pay20 (F := Ideal) v1 v3 vE L m c l
    = accE (accE vE L (maskF m)) (logitsB v1 c) (maskF (maskW v3 l)) := rfl
theorem pay21_eq : k0_pay21 (F := Ideal) v1 v3 vL L m c l
    = accL (accL vL L (maskF m)) (logitsB v1 c) (maskF (maskW v3 l)) := rfl
theorem pay22_eq : k0_pay22 (F := Ideal) v1 c = logitsB v1 c := rfl
theorem pay23_eq : k0_pay23 (F := Ideal) v3 l = maskW v3 l := rfl
theorem pay27_eq : k0_pay27 (F := Ideal) v1 v3 vE L m c l
    = accE (accE vE L (maskF m)) (logitsB v1 c) (maskF (maskW v3 l)) := rfl
theorem pay28_eq : k0_pay28 (F := Ideal) v1 v3 vL L m c l
    = accL (accL vL L (maskF m)) (logitsB v1 c) (maskF (maskW v3 l)) := rfl
theorem pay29_eq : k0_pay29 (F := Ideal) v1 c = logitsB v1 c := rfl
theorem pay30_eq : k0_pay30 (F := Ideal) v3 l = maskW v3 l := rfl
theorem pay1_eq : k0_pay1 (F := Ideal) vE vL L m = finish vE vL L (maskF m) := rfl
end

/-- The stored column in the named operations: the two running sums over chunks 0 … 6, then the last chunk and the
    final combination. -/
theorem stored_eq (r : Vec Ideal S1024x256 .bf16) (lr : Vec Ideal S1024x1 .i32)
    (c0 c1 c2 c3 c4 c5 c6 c7 : Vec Ideal S1024x256 .bf16) (l0 l1 l2 l3 l4 l5 l6 l7 : Vec Ideal S1x1024 .i32)
    (v1 : FVec Ideal S1024x256 .bf16) (v3 : IVec S1024x1 32)
    (hv1 : k0_pay2 (F := Ideal) r = v1) (hv3 : k0_pay3 (F := Ideal) lr = v3) :
    Cert.KernelIdeal.Body.stored r lr c0 l0 c1 l1 c2 l2 c3 l3 c4 l4 c5 l5 c6 l6 c7 l7
    = finish (accE (accE (accE (accE (accE (accE (accE zeroCol (logitsB v1 c0) (maskF (maskW v3 l0))) (logitsB v1 c1) (maskF (maskW v3 l1))) (logitsB v1 c2) (maskF (maskW v3 l2))) (logitsB v1 c3) (maskF (maskW v3 l3))) (logitsB v1 c4) (maskF (maskW v3 l4))) (logitsB v1 c5) (maskF (maskW v3 l5))) (logitsB v1 c6) (maskF (maskW v3 l6)))
      (accL (accL (accL (accL (accL (accL (accL zeroCol (logitsB v1 c0) (maskF (maskW v3 l0))) (logitsB v1 c1) (maskF (maskW v3 l1))) (logitsB v1 c2) (maskF (maskW v3 l2))) (logitsB v1 c3) (maskF (maskW v3 l3))) (logitsB v1 c4) (maskF (maskW v3 l4))) (logitsB v1 c5) (maskF (maskW v3 l5))) (logitsB v1 c6) (maskF (maskW v3 l6)))
      (logitsB v1 c7) (maskF (maskW v3 l7)) := by
  subst hv1 hv3
  unfold Cert.KernelIdeal.Body.stored
  simp only [pay1_eq, pay6_eq, pay7_eq, pay8_eq, pay9_eq, pay13_eq, pay14_eq, pay15_eq, pay16_eq, pay20_eq, pay21_eq,
    pay22_eq, pay23_eq, pay27_eq, pay28_eq, pay29_eq, pay30_eq]

end Cert.KernelIdeal.BodyValue

end
-- ==== Proof.Spec.lean ====
/-
  The row-wise form of the same-label contrastive loss, as functions of the normalised rows alone.

  For an 8192 × 256 array g of extended reals (every row a feature vector divided by its norm), the logit of the
  pair (i, j) is the inner product of rows i and j times the reciprocal temperature. When every pair of positions
  carries the same label the mask is all ones and the loss of the pair (i, j) is
      - log (exp l(i,j) / (Σ_j' exp l(i,j') + ε)) = log (Σ_j' exp l(i,j') + ε) - l(i,j)     (every l(i,j) a real)
  so that a row's losses add up to   8192 · log (Σ_j exp l(i,j) + ε) - Σ_j l(i,j)   — the quantity rowLoss below — and
  the mean over all pairs is  (Σ_i rowLoss i) / 8192².
-/
import Idealize.ShloMosaic.PureOps.Ideal
import Idealize.ShloMosaic.Lib.ValueIdx

noncomputable section

open scoped BigOperators

namespace Cert.Contrastive

open Idealize.ShloMosaic Idealize.ShloMosaic.ValueIdx

/-- The reciprocal of the temperature, 1 / (13421773 / 134217728). -/
def invTemp : EReal := ((134217728 / 13421773 : ℝ) : EReal)

/-- The additive guard of the denominator (the word of 1e-6). -/
def guard : EReal := Ideal.ofBits .f32 0x358637BD#32

/-- The number of columns, as the word of 8192.0. -/
def count : EReal := Ideal.ofBits .f32 0x46000000#32

/-- The number of pairs, as the word of 67108864.0 = 8192². -/
def pairs : EReal := Ideal.ofBits .f32 0x4C800000#32

/-- The logit of the pair of rows (i, j): their inner product over the 256 channels times the reciprocal temperature. -/
def logit (g : (⟨2, ![8192, 256]⟩ : Shape).Idx → EReal) (i j : Fin 8192) : EReal :=
  (∑ k : Fin 256, g (ix2 i k) * g (ix2 j k)) * invTemp

/-- Row i's denominator: the sum of the exponentials of its logits plus the guard. -/
def rowDenom (g : (⟨2, ![8192, 256]⟩ : Shape).Idx → EReal) (i : Fin 8192) : EReal :=
  (∑ j : Fin 8192, Ideal.exp (logit g i j)) + guard

/-- The losses of row i's 8192 pairs added up, in the grouped form: 8192 · log (denominator) − Σ_j logit. -/
def rowLoss (g : (⟨2, ![8192, 256]⟩ : Shape).Idx → EReal) (i : Fin 8192) : EReal :=
  count * Ideal.log (rowDenom g i) - ∑ j : Fin 8192, logit g i j

/-- The mean loss over all pairs. -/
def meanLoss (g : (⟨2, ![8192, 256]⟩ : Shape).Idx → EReal) : EReal :=
  Ideal.div (∑ i : Fin 8192, rowLoss g i) pairs

end Cert.Contrastive

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.ChunkOps.lean ====
/-
  The operations one column chunk of the kernel body applies, read at an index on the extended reals:
  the block of logits (the row tile times the transposed chunk, scaled by the reciprocal temperature),
  the same-label mask of a row label against the chunk's labels, and the sum of a block's row.
-/
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.Affine
import proofs.«159952_j47364899340365_2_alg».proof.Proof.Spec
import proofs.«159952_j47364899340365_2_alg».proof.Proof.LibBlockReads
import proofs.«159952_j47364899340365_2_alg».proof.Proof.Gen.KernelIdeal.Skeleton

noncomputable section

open scoped BigOperators

namespace Cert.KernelIdeal.BodyValue

open Idealize.ShloMosaic Idealize.ShloMosaic.ValueIdx Cert.KernelIdeal Cert.KernelIdeal.Gen Cert.Contrastive

/-- The named reciprocal temperature denotes the rational the table gives it. -/
theorem invTemp_named :
    Named.named (F := Ideal) κ "inv_temperature" (φ := .f32) 0x41200000#32 = invTemp :=
  IdealRules.named_const.ideal_named_scalar _ _ _ _ rfl

/-- The block of logits at (p, q): the inner product of row p of the tile with row q of the chunk, times the
    reciprocal temperature. -/
theorem logits_apply (a : FVec Ideal S1024x256 .bf16) (c : FVec Ideal S1024x256 .bf16)
    (hsc : S1024x256.ShapeCasts S1024x256) (htr : S1024x256.Transposes [1, 0] S256x1024) (p q : Fin 1024) :
    (mulf (matmul dot_S1024x256_S256x1024_S1024x1024_1_0_0_1_n_n none a
        (transpose S256x1024 [1, 0] (shapeCast S1024x256 c hsc) htr)
        (constant S1024x1024 .f32 0x00000000#32))
      (broadcast S1024x1024 (Named.named (F := Ideal) κ "inv_temperature" (φ := .f32) 0x41200000#32))) (ix2 p q)
    = (∑ k : Fin 256, a (ix2 p k) * c (ix2 q k)) * invTemp := by
  rw [mulf_apply, broadcast_apply, invTemp_named]
  refine congrArg (· * invTemp) ?_
  refine (Cert.Lib.BlockReads.matmul_zero_rows_apply dot_S1024x256_S256x1024_S1024x1024_1_0_0_1_n_n
    rfl rfl rfl rfl rfl rfl none a _ p q).trans ?_
  refine Finset.sum_congr rfl fun k _ => congrArg (a (ix2 p k) * ·) ?_
  refine (transpose_ix2_apply _ htr k q).trans ?_
  rw [shapeCast_self]

/-- A column of words broadcast along the rows' columns reads, at (p, q), the column's entry p. -/
theorem broadcast_col_apply (x : IVec S1024x1 32) (h : S1024x1.Broadcasts S1024x1024) (p q : Fin 1024) :
    broadcastTo S1024x1024 x h (ix2 p q) = x (ix2 p 0) := by
  refine broadcastTo_apply x h (ix2 p q) (ix2 p 0) fun ax => ?_
  match ax with
  | ⟨0, _⟩ =>
    show p.val = if (1024 : ℕ) = 1 then 0 else p.val
    rw [if_neg (by decide)]
  | ⟨1, _⟩ => rfl

/-- The comparison of a row label with the chunk's labels, at (p, q), is the true word when the two labels agree. -/
theorem cmp_apply (lr : IVec S1024x1 32) (l : IVec S1x1024 32)
    (hsc : S1x1024.ShapeCasts S1x1024) (hb1 : S1024x1.Broadcasts S1024x1024) (hb2 : S1x1024.Broadcasts S1024x1024)
    (p q : Fin 1024) (h : lr (ix2 p 0) = l (ix2 0 q)) :
    cmpi .eq (broadcastTo S1024x1024 lr hb1) (broadcastTo S1024x1024 (shapeCast S1x1024 l hsc) hb2) (ix2 p q) = 1#1 := by
  show IntOp.cmpi .eq _ _ = 1#1
  rw [IntOp.cmpi_eq, broadcast_col_apply, shapeCast_self]
  exact h.trans (broadcastTo_1b_ab_apply l hb2 p q).symm

/-- The true word, widened and read as a float, is one. -/
theorem maskF_apply (m : IVec S1024x1024 1) (hlt : 1 < 32) (p q : Fin 1024) (h : m (ix2 p q) = 1#1) :
    (sitofp (F := Ideal) .f32 (extui 32 m hlt)) (ix2 p q) = 1 := by
  rw [sitofp_apply, extui_apply, h]
  show (((BitVec.setWidth 32 1#1).toInt : ℝ) : EReal) = 1
  have : (BitVec.setWidth 32 1#1).toInt = 1 := by decide
  rw [this]; norm_num

/-- The same-label mask at (p, q) is one when row p's label is the chunk's label q. -/
theorem mask_apply (lr : IVec S1024x1 32) (l : IVec S1x1024 32)
    (hsc : S1x1024.ShapeCasts S1x1024) (hb1 : S1024x1.Broadcasts S1024x1024) (hb2 : S1x1024.Broadcasts S1024x1024)
    (hlt : 1 < 32) (p q : Fin 1024) (h : lr (ix2 p 0) = l (ix2 0 q)) :
    (sitofp (F := Ideal) .f32 (extui 32 (cmpi .eq (broadcastTo S1024x1024 lr hb1)
      (broadcastTo S1024x1024 (shapeCast S1x1024 l hsc) hb2)) hlt)) (ix2 p q) = 1 :=
  maskF_apply _ hlt p q (cmp_apply lr l hsc hb1 hb2 p q h)

/-- A block's row sum, kept as a column, at (p, 0): the sum over the row. -/
theorem rowsum_apply (v : FVec Ideal S1024x1024 .f32) (hr : S1024x1024.Reduces [1] S1024)
    (hsc : S1024.ShapeCasts S1024x1) (p : Fin 1024) :
    shapeCast S1024x1 (multiReduction .add [1] S1024 v 0x00000000#32 hr (.inl rfl) rfl) hsc (ix2 p 0)
      = ∑ q : Fin 1024, v (ix2 p q) := by
  refine (shapeCast_apply _ hsc (ix2 p 0) (ix1 p) ?_).trans ?_
  · rw [Shape.rowMajor_val_one, Shape.rowMajor_val_two]
    show p.val = p.val * 1 + 0
    omega
  refine (Ideal.multiReduction_add_single v 0x00000000#32 hr (.inl rfl) rfl (ix1 p)).trans ?_
  refine Finset.sum_congr rfl fun q _ => congrArg v ?_
  funext ax; apply Fin.ext
  match ax with
  | ⟨0, _⟩ => rfl
  | ⟨1, _⟩ => rfl

end Cert.KernelIdeal.BodyValue

end
-- ==== Proof.BodyRows.lean ====
/-
  The named block operations of the kernel body read at one row p of the tile, when that row holds row i of the
  normalised features, a chunk holds the rows from an offset on, and row p's label equals every label of the chunk:
  a logit block's row is the logits of (i, offset + q), a mask block's row is all ones, and the running sums grow by
  the chunk's sum of exponentials and sum of logits.
-/
import proofs.«159952_j47364899340365_2_alg».proof.Proof.BodyForm
import proofs.«159952_j47364899340365_2_alg».proof.Proof.ChunkOps

noncomputable section

open scoped BigOperators

namespace Cert.KernelIdeal.BodyValue

open Idealize.ShloMosaic Idealize.ShloMosaic.ValueIdx Cert.KernelIdeal Cert.KernelIdeal.Gen Cert.Contrastive

/-- Column q of the chunk that starts at column o. -/
def col (o : ℕ) (ho : o + 1024 ≤ 8192) (q : Fin 1024) : Fin 8192 := ⟨o + q.val, by have := q.isLt; omega⟩

/-- Row p of a logit block: the logits of row i against the chunk's rows. -/
theorem logitsB_row (g : (⟨2, ![8192, 256]⟩ : Shape).Idx → EReal) (i : Fin 8192) (p : Fin 1024)
    (a c : FVec Ideal S1024x256 .bf16) (o : ℕ) (ho : o + 1024 ≤ 8192)
    (ha : ∀ k : Fin 256, a (ix2 p k) = g (ix2 i k))
    (hc : ∀ (q : Fin 1024) (k : Fin 256), c (ix2 q k) = g (ix2 (col o ho q) k)) (q : Fin 1024) :
    logitsB a c (ix2 p q) = logit g i (col o ho q) := by
  unfold logitsB logit
  refine (logits_apply a c _ _ p q).trans ?_
  refine congrArg (· * invTemp) ?_
  refine Finset.sum_congr rfl fun k _ => ?_
  rw [ha k, hc q k]

/-- Row p of a mask block is all ones when row p's label is every label of the chunk. -/
theorem maskFW_row (lr : IVec S1024x1 32) (l : IVec S1x1024 32) (p q : Fin 1024)
    (h : lr (ix2 p 0) = l (ix2 0 q)) : maskF (maskW lr l) (ix2 p q) = 1 := by
  unfold maskF maskW
  exact mask_apply lr l _ _ _ _ p q h

/-- The column of zeros holds zero. -/
theorem zeroCol_row (p : Fin 1024) : zeroCol (ix2 p 0) = 0 := by
  unfold zeroCol
  rw [broadcast_apply]
  exact Ideal.ofBits_zero_f32

/-- Row p of the running sum of exponentials after a chunk whose mask row is all ones. -/
theorem accE_row (acc : FVec Ideal S1024x1 .f32) (L M : FVec Ideal S1024x1024 .f32) (p : Fin 1024)
    (X : Fin 1024 → EReal) (hL : ∀ q, L (ix2 p q) = X q) (hM : ∀ q, M (ix2 p q) = 1) :
    accE acc L M (ix2 p 0) = acc (ix2 p 0) + ∑ q : Fin 1024, Ideal.exp (X q) := by
  unfold accE rowsum
  rw [addf_apply]
  refine congrArg (acc (ix2 p 0) + ·) ?_
  refine (rowsum_apply _ _ _ p).trans ?_
  refine Finset.sum_congr rfl fun q _ => ?_
  rw [mulf_apply, hM q, mul_one]
  show FloatOps.exp (L (ix2 p q)) = _
  rw [hL q]
  rfl

/-- Row p of the running sum of logits after a chunk whose mask row is all ones. -/
theorem accL_row (acc : FVec Ideal S1024x1 .f32) (L M : FVec Ideal S1024x1024 .f32) (p : Fin 1024)
    (X : Fin 1024 → EReal) (hL : ∀ q, L (ix2 p q) = X q) (hM : ∀ q, M (ix2 p q) = 1) :
    accL acc L M (ix2 p 0) = acc (ix2 p 0) + ∑ q : Fin 1024, X q := by
  unfold accL rowsum
  rw [addf_apply]
  refine congrArg (acc (ix2 p 0) + ·) ?_
  refine (rowsum_apply _ _ _ p).trans ?_
  refine Finset.sum_congr rfl fun q _ => ?_
  rw [mulf_apply, hM q, mul_one, hL q]

/-- Row p of the final combination: 8192 · log (sum of exponentials + guard) − sum of logits. -/
theorem finish_row (vE vL : FVec Ideal S1024x1 .f32) (L M : FVec Ideal S1024x1024 .f32) (p : Fin 1024)
    (X : Fin 1024 → EReal) (hL : ∀ q, L (ix2 p q) = X q) (hM : ∀ q, M (ix2 p q) = 1) :
    finish vE vL L M (ix2 p 0)
      = count * Ideal.log ((vE (ix2 p 0) + ∑ q : Fin 1024, Ideal.exp (X q)) + guard)
        - (vL (ix2 p 0) + ∑ q : Fin 1024, X q) := by
  unfold finish
  rw [subf_apply, mulf_apply, broadcast_apply, accL_row vL L M p X hL hM]
  refine congrArg (· - (vL (ix2 p 0) + ∑ q : Fin 1024, X q)) ?_
  refine congrArg (count * ·) ?_
  show FloatOps.log (addf (accE vE L M) _ (ix2 p 0)) = _
  rw [addf_apply, broadcast_apply, accE_row vE L M p X hL hM]
  rfl

end Cert.KernelIdeal.BodyValue

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.BodySums.lean ====
/-
  A sum over the 8192 columns, taken chunk by chunk: eight consecutive chunks of 1024 columns, added in order onto zero.
-/
import Mathlib.Algebra.BigOperators.Fin
import proofs.«159952_j47364899340365_2_alg».proof.Proof.LibFinGroups

open scoped BigOperators

namespace Cert.KernelIdeal.BodyValue

/-- A function of the 8192 columns, continued by zero to every natural number. -/
private def ext0 {M : Type*} [AddCommMonoid M] (f : Fin 8192 → M) (n : ℕ) : M :=
  if h : n < 8192 then f ⟨n, h⟩ else 0

private theorem ext0_of_lt {M : Type*} [AddCommMonoid M] (f : Fin 8192 → M) (n : ℕ) (h : n < 8192) :
    ext0 f n = f ⟨n, h⟩ := dif_pos h

/-- The sum over one group of 1024 consecutive naturals below 8192 of a function of the columns. -/
private theorem sum_group {M : Type*} [AddCommMonoid M] (f : Fin 8192 → M) (k : Fin 8) (o : ℕ) (ho : o + 1024 ≤ 8192)
    (hk : 1024 * k.val = o) :
    ∑ j : Fin 1024, ext0 f (1024 * k.val + j.val)
      = ∑ q : Fin 1024, f ⟨o + q.val, by have := q.isLt; omega⟩ := by
  subst hk
  refine Finset.sum_congr rfl fun q _ => ?_
  exact ext0_of_lt f _ _

/-- A sum over 8192 columns is zero plus the sums over the eight chunks of 1024 columns, added in order. -/
theorem sum_chunks {M : Type*} [AddCommMonoid M] (f : Fin 8192 → M) :
    ∑ j : Fin 8192, f j = 0 + (∑ q : Fin 1024, f ⟨0 + q.val, by have := q.isLt; omega⟩) + (∑ q : Fin 1024, f ⟨1024 + q.val, by have := q.isLt; omega⟩) + (∑ q : Fin 1024, f ⟨2048 + q.val, by have := q.isLt; omega⟩) + (∑ q : Fin 1024, f ⟨3072 + q.val, by have := q.isLt; omega⟩) + (∑ q : Fin 1024, f ⟨4096 + q.val, by have := q.isLt; omega⟩) + (∑ q : Fin 1024, f ⟨5120 + q.val, by have := q.isLt; omega⟩) + (∑ q : Fin 1024, f ⟨6144 + q.val, by have := q.isLt; omega⟩) + (∑ q : Fin 1024, f ⟨7168 + q.val, by have := q.isLt; omega⟩) := by
  have h1 : ∑ j : Fin 8192, f j = ∑ n : Fin (8 * 1024), ext0 f n.val := by
    show ∑ j : Fin 8192, f j = ∑ n : Fin 8192, ext0 f n.val
    refine Finset.sum_congr rfl fun j _ => ?_
    exact (ext0_of_lt f j.val j.isLt).symm
  rw [h1, Cert.Lib.FinGroups.sum_fin_groups 8 1024, Fin.sum_univ_eight, zero_add]
  rw [sum_group f 0 0 (by omega) rfl, sum_group f 1 1024 (by omega) rfl, sum_group f 2 2048 (by omega) rfl,
    sum_group f 3 3072 (by omega) rfl, sum_group f 4 4096 (by omega) rfl, sum_group f 5 5120 (by omega) rfl,
    sum_group f 6 6144 (by omega) rfl, sum_group f 7 7168 (by omega) rfl]

end Cert.KernelIdeal.BodyValue
-- ==== Proof.BodyValue.lean ====
/-
  The column the kernel body stores, read at a row p of the tile that holds row i of the normalised features, when
  chunk n holds the rows 1024·n … 1024·n + 1023 and row p's label equals every label of every chunk: the two running
  sums are the sums over all 8192 columns of the exponentials of the logits and of the logits themselves, taken
  chunk by chunk, so the stored value is the row's grouped loss 8192 · log (Σ_j exp l(i,j) + guard) − Σ_j l(i,j).
-/
import proofs.«159952_j47364899340365_2_alg».proof.Proof.BodyRows
import proofs.«159952_j47364899340365_2_alg».proof.Proof.BodySums

noncomputable section

open scoped BigOperators

namespace Cert.KernelIdeal.BodyValue

open Idealize.ShloMosaic Idealize.ShloMosaic.ValueIdx Cert.KernelIdeal Cert.KernelIdeal.Gen Cert.Contrastive

theorem stored_apply (g : (⟨2, ![8192, 256]⟩ : Shape).Idx → EReal) (i : Fin 8192) (p : Fin 1024)
    (r : Vec Ideal S1024x256 .bf16) (lr : Vec Ideal S1024x1 .i32)
    (c0 c1 c2 c3 c4 c5 c6 c7 : Vec Ideal S1024x256 .bf16) (l0 l1 l2 l3 l4 l5 l6 l7 : Vec Ideal S1x1024 .i32)
    (hr : ∀ k : Fin 256, r (ix2 p k) = g (ix2 i k))
    (hc0 : ∀ (q : Fin 1024) (k : Fin 256), c0 (ix2 q k) = g (ix2 ⟨q.val, by omega⟩ k))
    (hc1 : ∀ (q : Fin 1024) (k : Fin 256), c1 (ix2 q k) = g (ix2 ⟨1024 + q.val, by omega⟩ k))
    (hc2 : ∀ (q : Fin 1024) (k : Fin 256), c2 (ix2 q k) = g (ix2 ⟨2048 + q.val, by omega⟩ k))
    (hc3 : ∀ (q : Fin 1024) (k : Fin 256), c3 (ix2 q k) = g (ix2 ⟨3072 + q.val, by omega⟩ k))
    (hc4 : ∀ (q : Fin 1024) (k : Fin 256), c4 (ix2 q k) = g (ix2 ⟨4096 + q.val, by omega⟩ k))
    (hc5 : ∀ (q : Fin 1024) (k : Fin 256), c5 (ix2 q k) = g (ix2 ⟨5120 + q.val, by omega⟩ k))
    (hc6 : ∀ (q : Fin 1024) (k : Fin 256), c6 (ix2 q k) = g (ix2 ⟨6144 + q.val, by omega⟩ k))
    (hc7 : ∀ (q : Fin 1024) (k : Fin 256), c7 (ix2 q k) = g (ix2 ⟨7168 + q.val, by omega⟩ k))
    (hl0 : ∀ q : Fin 1024, lr (ix2 p 0) = l0 (ix2 0 q))
    (hl1 : ∀ q : Fin 1024, lr (ix2 p 0) = l1 (ix2 0 q))
    (hl2 : ∀ q : Fin 1024, lr (ix2 p 0) = l2 (ix2 0 q))
    (hl3 : ∀ q : Fin 1024, lr (ix2 p 0) = l3 (ix2 0 q))
    (hl4 : ∀ q : Fin 1024, lr (ix2 p 0) = l4 (ix2 0 q))
    (hl5 : ∀ q : Fin 1024, lr (ix2 p 0) = l5 (ix2 0 q))
    (hl6 : ∀ q : Fin 1024, lr (ix2 p 0) = l6 (ix2 0 q))
    (hl7 : ∀ q : Fin 1024, lr (ix2 p 0) = l7 (ix2 0 q)) :
    Cert.KernelIdeal.Body.stored r lr c0 l0 c1 l1 c2 l2 c3 l3 c4 l4 c5 l5 c6 l6 c7 l7 (ix2 p 0) = Cert.Contrastive.rowLoss g i := by
  have e1 : k0_pay2 (F := Ideal) r = r := shapeCast_self r _
  have e3 : k0_pay3 (F := Ideal) lr = lr := shapeCast_self lr _
  rw [stored_eq r lr c0 c1 c2 c3 c4 c5 c6 c7 l0 l1 l2 l3 l4 l5 l6 l7 r lr e1 e3]
  have hc0' : ∀ (q : Fin 1024) (k : Fin 256), c0 (ix2 q k) = g (ix2 (col 0 (by omega) q) k) := fun q k =>
    (hc0 q k).trans (congrArg (fun j : Fin 8192 => g (ix2 j k)) (Fin.ext (Nat.zero_add q.val).symm))
  have L0 := logitsB_row g i p r c0 0 (by omega) hr hc0'
  have L1 := logitsB_row g i p r c1 1024 (by omega) hr hc1
  have L2 := logitsB_row g i p r c2 2048 (by omega) hr hc2
  have L3 := logitsB_row g i p r c3 3072 (by omega) hr hc3
  have L4 := logitsB_row g i p r c4 4096 (by omega) hr hc4
  have L5 := logitsB_row g i p r c5 5120 (by omega) hr hc5
  have L6 := logitsB_row g i p r c6 6144 (by omega) hr hc6
  have L7 := logitsB_row g i p r c7 7168 (by omega) hr hc7
  have M0 := fun q : Fin 1024 => maskFW_row lr l0 p q (hl0 q)
  have M1 := fun q : Fin 1024 => maskFW_row lr l1 p q (hl1 q)
  have M2 := fun q : Fin 1024 => maskFW_row lr l2 p q (hl2 q)
  have M3 := fun q : Fin 1024 => maskFW_row lr l3 p q (hl3 q)
  have M4 := fun q : Fin 1024 => maskFW_row lr l4 p q (hl4 q)
  have M5 := fun q : Fin 1024 => maskFW_row lr l5 p q (hl5 q)
  have M6 := fun q : Fin 1024 => maskFW_row lr l6 p q (hl6 q)
  have M7 := fun q : Fin 1024 => maskFW_row lr l7 p q (hl7 q)
  refine (finish_row _ _ _ _ p _ L7 M7).trans ?_
  rw [accE_row _ _ _ p _ L6 M6, accE_row _ _ _ p _ L5 M5, accE_row _ _ _ p _ L4 M4, accE_row _ _ _ p _ L3 M3, accE_row _ _ _ p _ L2 M2, accE_row _ _ _ p _ L1 M1, accE_row _ _ _ p _ L0 M0]
  rw [accL_row _ _ _ p _ L6 M6, accL_row _ _ _ p _ L5 M5, accL_row _ _ _ p _ L4 M4, accL_row _ _ _ p _ L3 M3, accL_row _ _ _ p _ L2 M2, accL_row _ _ _ p _ L1 M1, accL_row _ _ _ p _ L0 M0]
  rw [zeroCol_row]
  unfold rowLoss rowDenom
  rw [sum_chunks (fun j => Ideal.exp (logit g i j)), sum_chunks (logit g i)]
  rfl

end Cert.KernelIdeal.BodyValue

end
-- ==== Proof.KernelValueBlocks.lean ====
/-
  What the kernel body leaves in the output block, read at a row, from the four input blocks as plain arrays: the row
  tile's row p holds row i of the features, the whole-array block holds the features, and row p's label equals every
  label — then the output block's row p is row i's grouped loss. The chunk loads read the whole-array blocks at
  the chunk's offset plus the position inside the chunk.
-/
import proofs.«159952_j47364899340365_2_alg».proof.Proof.RegionIdeal
import proofs.«159952_j47364899340365_2_alg».proof.Proof.BodyValue
import Idealize.ShloMosaic.Lib.Pipeline.Value

noncomputable section

namespace Cert.KernelIdeal.KernelValue

open Cert.KernelIdeal Cert.KernelIdeal.Gen Cert.KernelIdeal.Body Cert.Contrastive
open Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

/-- A load of 1024 rows of the whole feature block from row o on reads row o + q at position q. -/
theorem ld_rows (x1 : Vec Ideal S8192x256 .bf16) (o : ℕ) (ho : o + 1024 ≤ 8192)
    (inb : ∀ a, (![o, 0] : Fin 2 → Nat) a + S1024x256.size a ≤ S8192x256.size a) (q : Fin 1024) (k : Fin 256) :
    View.ld x1 (Rect.unit (s := S8192x256) ![o, 0] S1024x256.size inb) (ix2 q k)
      = x1 (ix2 ⟨o + q.val, by have := q.isLt; omega⟩ k) := by
  show x1 ((Rect.unit (s := S8192x256) ![o, 0] S1024x256.size inb).idx (ix2 q k)) = _
  refine congrArg x1 ?_
  funext a; apply Fin.ext
  match a with
  | ⟨0, _⟩ => show o + 1 * q.val = o + q.val; omega
  | ⟨1, _⟩ => show 0 + 1 * k.val = k.val; omega

/-- A load of 1024 labels of the whole label row from column o on reads column o + q at position q. -/
theorem ld_cols (x3 : Vec Ideal S1x8192 .i32) (o : ℕ) (ho : o + 1024 ≤ 8192)
    (inb : ∀ a, (![0, o] : Fin 2 → Nat) a + S1x1024.size a ≤ S1x8192.size a) (q : Fin 1024) :
    View.ld x3 (Rect.unit (s := S1x8192) ![0, o] S1x1024.size inb) (ix2 0 q)
      = x3 (ix2 0 ⟨o + q.val, by have := q.isLt; omega⟩) := by
  show x3 ((Rect.unit (s := S1x8192) ![0, o] S1x1024.size inb).idx (ix2 0 q)) = _
  refine congrArg x3 ?_
  funext a; apply Fin.ext
  match a with
  | ⟨0, _⟩ => show 0 + 1 * 0 = 0; omega
  | ⟨1, _⟩ => show o + 1 * q.val = o + q.val; omega

/-- Row p of the output block is row i's grouped loss. -/
theorem outCol_apply (x0 : Vec Ideal S1024x256 .bf16) (x1 : Vec Ideal S8192x256 .bf16) (x2 : Vec Ideal S1024x1 .i32)
    (x3 : Vec Ideal S1x8192 .i32) (g : (⟨2, ![8192, 256]⟩ : Shape).Idx → EReal) (i : Fin 8192) (p : Fin 1024)
    (h0 : ∀ k : Fin 256, x0 (ix2 p k) = g (ix2 i k))
    (h1 : ∀ (j : Fin 8192) (k : Fin 256), x1 (ix2 j k) = g (ix2 j k))
    (h2 : ∀ j : Fin 8192, x2 (ix2 p 0) = x3 (ix2 0 j)) :
    outCol x0 x1 x2 x3 (ix2 p 0) = rowLoss g i := by
  unfold outCol
  rw [View.canon_unit_zero hz]
  exact Cert.KernelIdeal.BodyValue.stored_apply g i p (View.ld x0 rRows) (View.ld x2 rCol)
    (View.ld x1 rC0) (View.ld x1 rC1) (View.ld x1 rC2) (View.ld x1 rC3) (View.ld x1 rC4) (View.ld x1 rC5)
    (View.ld x1 rC6) (View.ld x1 rC7) (View.ld x3 rL0) (View.ld x3 rL1) (View.ld x3 rL2) (View.ld x3 rL3)
    (View.ld x3 rL4) (View.ld x3 rL5) (View.ld x3 rL6) (View.ld x3 rL7)
    (fun k => (congrFun (View.ld_unit_zero (S := S1024x256) hz _ x0) (ix2 p k)).trans (h0 k))
    (fun q k => (ld_rows x1 0 (by omega) _ q k).trans ((h1 _ k).trans
      (congrArg (fun j : Fin 8192 => g (ix2 j k)) (Fin.ext (Nat.zero_add q.val)))))
    (fun q k => (ld_rows x1 1024 (by omega) _ q k).trans (h1 _ k))
    (fun q k => (ld_rows x1 2048 (by omega) _ q k).trans (h1 _ k))
    (fun q k => (ld_rows x1 3072 (by omega) _ q k).trans (h1 _ k))
    (fun q k => (ld_rows x1 4096 (by omega) _ q k).trans (h1 _ k))
    (fun q k => (ld_rows x1 5120 (by omega) _ q k).trans (h1 _ k))
    (fun q k => (ld_rows x1 6144 (by omega) _ q k).trans (h1 _ k))
    (fun q k => (ld_rows x1 7168 (by omega) _ q k).trans (h1 _ k))
    (fun q => (congrFun (View.ld_unit_zero (S := S1024x1) hz _ x2) (ix2 p 0)).trans ((h2 _).trans (ld_cols x3 0 (by omega) _ q).symm))
    (fun q => (congrFun (View.ld_unit_zero (S := S1024x1) hz _ x2) (ix2 p 0)).trans ((h2 _).trans (ld_cols x3 1024 (by omega) _ q).symm))
    (fun q => (congrFun (View.ld_unit_zero (S := S1024x1) hz _ x2) (ix2 p 0)).trans ((h2 _).trans (ld_cols x3 2048 (by omega) _ q).symm))
    (fun q => (congrFun (View.ld_unit_zero (S := S1024x1) hz _ x2) (ix2 p 0)).trans ((h2 _).trans (ld_cols x3 3072 (by omega) _ q).symm))
    (fun q => (congrFun (View.ld_unit_zero (S := S1024x1) hz _ x2) (ix2 p 0)).trans ((h2 _).trans (ld_cols x3 4096 (by omega) _ q).symm))
    (fun q => (congrFun (View.ld_unit_zero (S := S1024x1) hz _ x2) (ix2 p 0)).trans ((h2 _).trans (ld_cols x3 5120 (by omega) _ q).symm))
    (fun q => (congrFun (View.ld_unit_zero (S := S1024x1) hz _ x2) (ix2 p 0)).trans ((h2 _).trans (ld_cols x3 6144 (by omega) _ q).symm))
    (fun q => (congrFun (View.ld_unit_zero (S := S1024x1) hz _ x2) (ix2 p 0)).trans ((h2 _).trans (ld_cols x3 7168 (by omega) _ q).symm))

end Cert.KernelIdeal.KernelValue

end
-- ==== Proof.KernelValue.lean ====
/-
  From the blocks to the array: the output array of the kernel region, after the last grid point, holds at row y
  the grouped loss of row y of the features — when the region finds the features in the shared input array, one
  label per row in the row-label and column-label arrays, and all labels equal.

  Grid point t reads rows 1024·t … 1024·t + 1023 of the features and of the row labels, the whole feature array and
  the whole label row, and writes rows 1024·t … 1024·t + 1023 of the output; the eight points' blocks cover it.
-/
import proofs.«159952_j47364899340365_2_alg».proof.Proof.KernelValueBlocks

noncomputable section

namespace Cert.KernelIdeal.KernelValue

open Cert.KernelIdeal Cert.KernelIdeal.Gen Cert.KernelIdeal.Body Cert.Contrastive
open Idealize.ShloMosaic Idealize.ShloMosaic.TcCoe Idealize.ShloMosaic.ValueIdx
open Idealize.SL.Sem
open Idealize.ShloMosaic.Pipeline (Dat)

/-- The printed index maps, decided over the grid: the row tile, the row labels and the output move with the point
    along the rows; the whole-array windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A point's number is below eight. -/
theorem point_lt (t : Fin cfg0.N) : t.val < 8 := by
  have h : cfg0.N = 8 := N_0
  have := t.isLt
  omega

/-- A column of 1024 values is determined by its entries (p, 0). -/
theorem col_ext (o : Vec Ideal S1024x1 .f32) (G : Fin 1024 → EReal) (h : ∀ p : Fin 1024, o (ix2 p 0) = G p) :
    o = fun y => G (y 0) := by
  funext y
  have e : y = ix2 (y 0) 0 := by
    funext a
    match a with
    | ⟨0, _⟩ => rfl
    | ⟨1, _⟩ =>
      apply Fin.ext
      have h1 : (y 1).val < 1 := (y 1).isLt
      show (y 1).val = 0
      omega
  exact (congrArg o e).trans (h (y 0))

section
variable (V : (c : Dev nD) → (b : Ref sig .tc) → Buf (Elt Ideal) ((c : Thread nD τ).loc b)) (c : Dev nD)

/-- Point t's row tile reads rows 1024·t + p of the feature array. -/
theorem iblk0_apply (t : Fin cfg0.N) (p : Fin 1024) (k : Fin 256) :
    (iblk V c 0 t : Vec Ideal S1024x256 .bf16) (ix2 p k)
      = (V c main_v8 : (⟨2, ![8192, 256]⟩ : Shape).Idx → EReal)
          (ix2 ⟨1024 * t.val + p.val, by have := point_lt t; have := p.isLt; omega⟩ k) := by
  obtain ⟨e0, e1, -⟩ := idx_facts t
  unfold iblk
  rw [View.read_apply]
  show V c main_v8 _ = V c main_v8 _
  refine congrArg (V c main_v8) ?_
  funext a; apply Fin.ext
  match a with
  | ⟨0, _⟩ => show win0_0.index t (0 : Fin 2) * 1024 + 1 * p.val = 1024 * t.val + p.val; rw [e0]; omega
  | ⟨1, _⟩ => show win0_0.index t (1 : Fin 2) * 256 + 1 * k.val = k.val; rw [e1]; omega

/-- Point t's whole-array block is the feature array. -/
theorem iblk1_apply (t : Fin cfg0.N) (j : Fin 8192) (k : Fin 256) :
    (iblk V c 1 t : Vec Ideal S8192x256 .bf16) (ix2 j k)
      = (V c main_v8 : (⟨2, ![8192, 256]⟩ : Shape).Idx → EReal) (ix2 j k) := by
  obtain ⟨-, -, e0, e1, -⟩ := idx_facts t
  unfold iblk
  rw [View.read_apply]
  show V c main_v8 _ = V c main_v8 _
  refine congrArg (V c main_v8) ?_
  funext a; apply Fin.ext
  match a with
  | ⟨0, _⟩ => show win0_1.index t (0 : Fin 2) * 8192 + 1 * j.val = j.val; rw [e0]; omega
  | ⟨1, _⟩ => show win0_1.index t (1 : Fin 2) * 256 + 1 * k.val = k.val; rw [e1]; omega

/-- Point t's row labels are the labels of rows 1024·t + p. -/
theorem iblk2_apply (t : Fin cfg0.N) (p : Fin 1024) :
    (iblk V c 2 t : Vec Ideal S1024x1 .i32) (ix2 p 0)
      = (V c main_v9 : (⟨2, ![8192, 1]⟩ : Shape).Idx → BitVec 32)
          (ix2 ⟨1024 * t.val + p.val, by have := point_lt t; have := p.isLt; omega⟩ 0) := by
  obtain ⟨-, -, -, -, e0, e1, -⟩ := idx_facts t
  unfold iblk
  rw [View.read_apply]
  show V c main_v9 _ = V c main_v9 _
  refine congrArg (V c main_v9) ?_
  funext a; apply Fin.ext
  match a with
  | ⟨0, _⟩ => show win0_2.index t (0 : Fin 2) * 1024 + 1 * p.val = 1024 * t.val + p.val; rw [e0]; omega
  | ⟨1, _⟩ => show win0_2.index t (1 : Fin 2) * 1 + 1 * 0 = 0; rw [e1]

/-- Point t's label row is the whole label row. -/
theorem iblk3_apply (t : Fin cfg0.N) (j : Fin 8192) :
    (iblk V c 3 t : Vec Ideal S1x8192 .i32) (ix2 0 j)
      = (V c main_v10 : (⟨2, ![1, 8192]⟩ : Shape).Idx → BitVec 32) (ix2 0 j) := by
  obtain ⟨-, -, -, -, -, -, e0, e1, -⟩ := idx_facts t
  unfold iblk
  rw [View.read_apply]
  show V c main_v10 _ = V c main_v10 _
  refine congrArg (V c main_v10) ?_
  funext a; apply Fin.ext
  match a with
  | ⟨0, _⟩ => show win0_3.index t (0 : Fin 2) * 1 + 1 * 0 = 0; rw [e0]
  | ⟨1, _⟩ => show win0_3.index t (1 : Fin 2) * 8192 + 1 * j.val = j.val; rw [e1]; omega

variable (g : (⟨2, ![8192, 256]⟩ : Shape).Idx → EReal) (lab : Fin 8192 → BitVec 32)
  (hg : (V c main_v8 : (⟨2, ![8192, 256]⟩ : Shape).Idx → EReal) = g)
  (hrow : ∀ i : Fin 8192, (V c main_v9 : (⟨2, ![8192, 1]⟩ : Shape).Idx → BitVec 32) (ix2 i 0) = lab i)
  (hcol : ∀ j : Fin 8192, (V c main_v10 : (⟨2, ![1, 8192]⟩ : Shape).Idx → BitVec 32) (ix2 0 j) = lab j)
  (hl : ∀ a b : Fin 8192, lab a = lab b)

include hg hrow hcol hl in
/-- What point t writes back is block t of the row losses. -/
theorem flushed_eq (t : Fin cfg0.N) :
    (dat V c).flushed 4 t = ((cfg0.win 4).blk t).view.read (Elt Ideal) (fun y => rowLoss g (y 0)) := by
  have ht := point_lt t
  obtain ⟨-, -, -, -, -, -, -, -, e0, e1⟩ := idx_facts t
  show (cfg0.win 4).cut (grid0.coords t) ((dat V c).after 4 t) = _
  rw [after_4]
  have key : outCol (iblk V c 0 t) (iblk V c 1 t) (iblk V c 2 t) (iblk V c 3 t)
      = fun y : S1024x1.Idx => rowLoss g ⟨1024 * t.val + (y 0).val, by
          have h0 : (y 0).val < 1024 := (y 0).isLt
          omega⟩ :=
    col_ext (outCol (iblk V c 0 t) (iblk V c 1 t) (iblk V c 2 t) (iblk V c 3 t))
      (fun p : Fin 1024 => rowLoss g ⟨1024 * t.val + p.val, by have := p.isLt; omega⟩)
      (fun p => outCol_apply (iblk V c 0 t) (iblk V c 1 t) (iblk V c 2 t) (iblk V c 3 t) g
        ⟨1024 * t.val + p.val, by have := p.isLt; omega⟩ p
        (fun k => (iblk0_apply V c t p k).trans (congrFun hg _))
        (fun j k => (iblk1_apply V c t j k).trans (congrFun hg _))
        (fun j => (iblk2_apply V c t p).trans ((hrow _).trans ((hl _ j).trans ((hcol j).symm.trans
          (iblk3_apply V c t j).symm)))))
  rw [key]
  funext y
  show rowLoss g _ = rowLoss g _
  refine congrArg (rowLoss g) (Fin.ext ?_)
  show 1024 * t.val + (y 0).val = win0_4.index t (0 : Fin 2) * 1024 + 1 * (y 0).val
  rw [e0]; omega

/-- An index of the output array is in point t's block iff each coordinate is in the block's range. -/
theorem mem_blk (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v11).slice (win0_4.rect t)).set ↔ _
  rw [View.set_slice_whole, Rect.mem_set_unit]
  exact Iff.rfl

/-- Every row of the output is in the block of the point its number divided by 1024 names. -/
theorem cover (i : S8192x1.Idx) :
    ∃ t : Fin cfg0.N, (cfg0.win 4).flush t = true ∧ i ∈ ((cfg0.win 4).blk t).view.set := by
  have hN : cfg0.N = 8 := N_0
  have hi0 : (i 0).val < 8192 := (i 0).isLt
  have hi1 : (i 1).val < 1 := (i 1).isLt
  have hlt : (i 0).val / 1024 < cfg0.N := by rw [hN]; omega
  obtain ⟨-, -, -, -, -, -, -, -, e0, e1⟩ := idx_facts ⟨(i 0).val / 1024, hlt⟩
  refine ⟨⟨(i 0).val / 1024, hlt⟩, flush0_4 _, ?_⟩
  rw [mem_blk]
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_4.index ⟨(i 0).val / 1024, hlt⟩ (1 : Fin 2) * 1 ≤ (i 1).val
      ∧ (i 1).val < win0_4.index ⟨(i 0).val / 1024, hlt⟩ (1 : Fin 2) * 1 + 1
    rw [e1]
    omega

end

theorem final_col (V : (c : Dev nD) → (b : Ref sig .tc) → Buf (Elt Ideal) ((c : Thread nD τ).loc b)) (c : Dev nD)
    (g : (⟨2, ![8192, 256]⟩ : Shape).Idx → EReal) (lab : Fin 8192 → BitVec 32)
    (hg : (V c main_v8 : (⟨2, ![8192, 256]⟩ : Shape).Idx → EReal) = g)
    (hrow : ∀ i : Fin 8192, (V c main_v9 : (⟨2, ![8192, 1]⟩ : Shape).Idx → BitVec 32) (ix2 i 0) = lab i)
    (hcol : ∀ j : Fin 8192, (V c main_v10 : (⟨2, ![1, 8192]⟩ : Shape).Idx → BitVec 32) (ix2 0 j) = lab j)
    (hl : ∀ a b : Fin 8192, lab a = lab b) :
    ((Cert.KernelIdeal.Body.dat V c).arrAt 4 cfg0.N : (⟨2, ![8192, 1]⟩ : Shape).Idx → EReal)
      = fun y => Cert.Contrastive.rowLoss g (y 0) :=
  (Cert.KernelIdeal.Body.dat V c).arrAt_eq_of_cover 4 (fun y => Cert.Contrastive.rowLoss g (y 0))
    (fun t _ => flushed_eq V c g lab hg hrow hcol hl t) cover

end Cert.KernelIdeal.KernelValue

end
-- ==== Proof.RefConsts.lean ====
/-
  The float words the reference spells, as the real numbers they denote.
-/
import Idealize.ShloMosaic.PureOps.Ideal

noncomputable section

namespace Cert.ReferenceIdeal.RefValue

open Idealize.ShloMosaic

/-- The temperature word denotes 13421773 / 2^27, the float nearest 0.1. -/
theorem word_temperature : Ideal.ofBits .f32 0x3DCCCCCD#32 = ((13421773 / 134217728 : ℝ) : EReal) := by
  simp [Ideal.ofBits, Ideal.ieee, -EReal.coe_mul]; norm_num

/-- The count word denotes 8192. -/
theorem word_count : Ideal.ofBits .f32 0x46000000#32 = ((8192 : ℝ) : EReal) := by
  simp [Ideal.ofBits, Ideal.ieee, -EReal.coe_mul]; norm_num

/-- The guard word denotes 8796093 / 2^43, the float nearest 1e-6. -/
theorem word_guard : Ideal.ofBits .f32 0x358637BD#32 = ((8796093 / 8796093022208 : ℝ) : EReal) := by
  simp [Ideal.ofBits, Ideal.ieee, -EReal.coe_mul]; norm_num

/-- The norm floor word denotes 9223372 / 2^63, the float nearest 1e-12. -/
theorem word_floor : Ideal.ofBits .f32 0x2B8CBCCC#32 = ((9223372 / 9223372036854775808 : ℝ) : EReal) := by
  simp [Ideal.ofBits, Ideal.ieee, -EReal.coe_mul]; norm_num

end Cert.ReferenceIdeal.RefValue

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.RefDecode.lean ====
/-
  The input check read back: when the printed predicate is all ones, every feature is a real number and all
  flattened labels are equal.
-/
import proofs.«159952_j47364899340365_2_alg».proof.Defs
import proofs.«159952_j47364899340365_2_alg».proof.Proof.LibIdealSums
import Idealize.ShloMosaic.Lib.ReduceAll
import Idealize.ShloMosaic.Lib.ValueIdx
import Idealize.ShloMosaic.Lib.Pipeline.Value

noncomputable section

open scoped BigOperators

namespace Cert.ReferenceIdeal.RefValue

open Cert.ReferenceIdeal Idealize.ShloMosaic Idealize.ShloMosaic.ValueIdx Cert.Lib.IdealSums

/-- The scalar shape has one index. -/
instance subsingleton_scalar_idx : Subsingleton (S_.Idx) := ⟨fun a b => funext fun d => d.elim0⟩

/-- A vector of length 8192 laid out as a column and repeated along the rows reads, at (a, b), its entry a. -/
theorem col_bcast {α : Type} (y : S8192.Idx → α) (h1 : S8192.BroadcastsInDim S8192x1 ![0])
    (h2 : S8192x1.BroadcastsInDim S8192x8192 ![0, 1]) (a b : Fin 8192) :
    broadcastInDim S8192x8192 ![0, 1] h2 (broadcastInDim S8192x1 ![0] h1 y) (ix2 a b) = y (ix1 a) := by
  rw [broadcastInDim_apply _ h2 _ (ix2 a b) (ix2 a (0 : Fin 1)) (fun d => match d with
        | ⟨0, _⟩ => by show a.val = if (8192 : Nat) = 1 then 0 else a.val; rw [if_neg (by decide)]
        | ⟨1, _⟩ => by show 0 = if (1 : Nat) = 1 then 0 else b.val; rw [if_pos rfl]),
      broadcastInDim_apply _ h1 _ (ix2 a (0 : Fin 1)) (ix1 a) (fun d => match d with
        | ⟨0, _⟩ => by show a.val = if (8192 : Nat) = 1 then 0 else a.val; rw [if_neg (by decide)])]

/-- The same vector laid out as a row and repeated along the columns reads, at (a, b), its entry b. -/
theorem row_bcast {α : Type} (y : S8192.Idx → α) (h1 : S8192.BroadcastsInDim S1x8192 ![1])
    (h2 : S1x8192.BroadcastsInDim S8192x8192 ![0, 1]) (a b : Fin 8192) :
    broadcastInDim S8192x8192 ![0, 1] h2 (broadcastInDim S1x8192 ![1] h1 y) (ix2 a b) = y (ix1 b) := by
  rw [broadcastInDim_apply _ h2 _ (ix2 a b) (ix2 (0 : Fin 1) b) (fun d => match d with
        | ⟨0, _⟩ => by show 0 = if (1 : Nat) = 1 then 0 else a.val; rw [if_pos rfl]
        | ⟨1, _⟩ => by show b.val = if (8192 : Nat) = 1 then 0 else b.val; rw [if_neg (by decide)]),
      broadcastInDim_apply _ h1 _ (ix2 (0 : Fin 1) b) (ix1 b) (fun d => match d with
        | ⟨0, _⟩ => by show b.val = if (8192 : Nat) = 1 then 0 else b.val; rw [if_neg (by decide)])]

/-- The input check: all ones means every feature is a real and all flattened labels agree. -/
theorem decode [Cert.Pre_finite_inputs.Facts]
    (x0 : (⟨S2x256x64x64, .f32⟩ : BufTy).Contents (Elt Ideal))
    (x1 : (⟨S2x64x64, .i32⟩ : BufTy).Contents (Elt Ideal))
    (h : Cert.Pre_finite_inputs.fn (F := Ideal) x0 x1 = (fun _ => 1#1)) :
    (∀ i, ∃ r : ℝ, x0 i = (r : EReal)) ∧
    (∀ (hsc : S2x64x64.ShapeCasts S8192) (a b : Fin 8192),
      (shapeCast S8192 x1 hsc) (ix1 a) = (shapeCast S8192 x1 hsc) (ix1 b)) := by
  have h0 := congrFun h ValueIdx.ix0
  dsimp only [Cert.Pre_finite_inputs.fn] at h0
  obtain ⟨h1, h2⟩ := IntOp.andi_eq_one.1 h0
  refine ⟨fun i => ?_, fun hsc a b => ?_⟩
  · have e := Host.reduce_andi_all _ _ _ _ _ h1 i
    exact isReal_of_cmpf_abs (x0 i) e
  · have e := Host.reduce_andi_all _ _ _ _ _ h2 (ix2 a b)
    have e' := IntOp.cmpi_eq.1 e
    rw [col_bcast, row_bcast] at e'
    exact e'

end Cert.ReferenceIdeal.RefValue

end
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«159952_j47364899340365_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.RefRows.lean ====
/-
  The normalised rows are real numbers: a real feature divided by the larger of its row's norm (the square root of
  a sum of squares of reals, a nonnegative real) and a positive real floor.
-/
import proofs.«159952_j47364899340365_2_alg».proof.Defs
import proofs.«159952_j47364899340365_2_alg».proof.Proof.Gen.ReferenceIdeal.Run
import proofs.«159952_j47364899340365_2_alg».proof.Proof.Gen.ReferenceIdeal.Read
import proofs.«159952_j47364899340365_2_alg».proof.Proof.RefConsts
import proofs.«159952_j47364899340365_2_alg».proof.Proof.LibIdealSums
import proofs.«159952_j47364899340365_2_alg».proof.Proof.LibRealSums

noncomputable section

open scoped BigOperators

namespace Cert.ReferenceIdeal.RefValue

open Cert.ReferenceIdeal Idealize.ShloMosaic Idealize.ShloMosaic.ValueIdx Cert.Lib.IdealSums Cert.Lib.RealSums

/-- The square root of a nonnegative real is a real. -/
theorem sqrt_coe_of_nonneg {r : ℝ} (hr : 0 ≤ r) : Ideal.sqrt (r : EReal) = ((Real.sqrt r : ℝ) : EReal) := by
  rw [Ideal.sqrt_coe, if_neg (not_lt.2 hr)]

/-- The features in their row layout are reals. -/
theorem flat_real
    (x0 : (⟨S2x256x64x64, .f32⟩ : BufTy).Contents (Elt Ideal))
    (hx : ∀ i, ∃ r : ℝ, x0 i = (r : EReal)) (j : S8192x256.Idx) :
    IsReal (Cert.ReferenceIdeal.Read.val_main_v1 (F := Ideal) x0 j) := by
  rw [Read.val_main_v1_apply, Read.val_main_v0_apply]; exact hx _

/-- A row's norm is a real. -/
theorem norm_real
    (x0 : (⟨S2x256x64x64, .f32⟩ : BufTy).Contents (Elt Ideal))
    (hx : ∀ i, ∃ r : ℝ, x0 i = (r : EReal)) (i : S8192x1.Idx) :
    IsReal (Cert.ReferenceIdeal.Read.val_main_v9 (F := Ideal) x0 i) := by
  choose f hf using flat_real x0 hx
  rw [Read.val_main_v9_apply, Read.val_main_call0_v2_apply, Read.val_main_call0_v1_apply, Read.val_main_call0_cst_apply]
  simp only [Read.val_main_call0_v0_apply, hf, Ideal.ofBits_def, Ideal.ofBits_zero_f32, zero_add, Ideal.mulf_def,
    Ideal.hostUnary_sqrt_def]
  rw [← coe_sum_mul, sqrt_coe_of_nonneg (Finset.sum_nonneg fun k _ => mul_self_nonneg _)]
  exact isReal_coe _

/-- The normalised rows are reals. -/
theorem rows_real
    (x0 : (⟨S2x256x64x64, .f32⟩ : BufTy).Contents (Elt Ideal))
    (hx : ∀ i, ∃ r : ℝ, x0 i = (r : EReal)) :
    ∀ idx, ∃ r : ℝ, Cert.ReferenceIdeal.Read.val_main_v13 (F := Ideal) x0 idx = (r : EReal) := by
  intro idx
  rw [Read.val_main_v13_apply, Read.val_main_v12_apply, Read.val_main_v11_apply, Read.val_main_v10_apply,
    Read.val_main_cst_apply]
  simp only [Ideal.hostDivf_def, Ideal.maximumf_def, Ideal.ofBits_def]
  have hfloor : (0 : EReal) < Ideal.ofBits .f32 0x2B8CBCCC#32 := by
    rw [word_floor]; exact_mod_cast (by norm_num : (0 : ℝ) < 9223372 / 9223372036854775808)
  exact IsReal.div (flat_real x0 hx idx) (isReal_max (norm_real x0 hx _) ⟨_, word_floor⟩)
    (lt_of_lt_of_le hfloor (le_max_right _ _)).ne'

end Cert.ReferenceIdeal.RefValue

end
-- ==== Proof.RowLaw.lean ====
/-
  The grouping law of the same-label contrastive loss. For real logits l(i,j), a nonnegative real guard ε and n > 0
  columns, the losses of row i's pairs add up to
      Σ_j − log (exp l(i,j) / (Σ_k exp l(i,k) + ε)) = n · log (Σ_k exp l(i,k) + ε) − Σ_j l(i,j),
  because the denominator d is positive and − log (e^l / d) = log d − l. Summed over the rows and divided by the
  number of pairs this is the mean loss of the specification.
-/
import proofs.«159952_j47364899340365_2_alg».proof.Proof.Spec
import proofs.«159952_j47364899340365_2_alg».proof.Proof.RefConsts
import proofs.«159952_j47364899340365_2_alg».proof.Proof.LibIdealSums

noncomputable section

open scoped BigOperators

namespace Cert.ReferenceIdeal.RefValue

open Idealize.ShloMosaic Idealize.ShloMosaic.ValueIdx Cert.Lib.IdealSums Cert.Contrastive

/-- One row: the pairwise losses of real logits, added up, in the grouped form. -/
theorem row_law {n : ℕ} (hn : 0 < n) (L : Fin n → EReal) (hL : ∀ j, IsReal (L j))
    (ε : EReal) (hε : IsReal ε) (hε0 : 0 ≤ ε) :
    ∑ j, -(Ideal.log (Ideal.div (Ideal.exp (L j)) ((∑ k, Ideal.exp (L k)) + ε)))
      = ((n : ℝ) : EReal) * Ideal.log ((∑ k, Ideal.exp (L k)) + ε) - ∑ j, L j := by
  choose l hl using hL
  obtain ⟨e, rfl⟩ := hε
  have he : 0 ≤ e := by exact_mod_cast hε0
  simp only [hl, Ideal.exp_coe]
  rw [← coe_sum_univ, ← EReal.coe_add]
  have hs : 0 < ∑ k, Real.exp (l k) :=
    Finset.sum_pos (fun k _ => Real.exp_pos _) ⟨⟨0, hn⟩, Finset.mem_univ _⟩
  have hd0 : 0 < (∑ k, Real.exp (l k)) + e := add_pos_of_pos_of_nonneg hs he
  generalize (∑ k, Real.exp (l k)) + e = d at hd0
  have key : ∀ j, -(Ideal.log (Ideal.div ((Real.exp (l j) : ℝ) : EReal) (d : EReal)))
      = ((Real.log d - l j : ℝ) : EReal) := by
    intro j
    rw [div_coe_coe _ hd0.ne', Ideal.log_coe, if_neg (not_le.2 (div_pos (Real.exp_pos _) hd0)),
      Real.log_div (Real.exp_pos _).ne' hd0.ne', Real.log_exp, ← EReal.coe_neg, neg_sub]
  simp only [key]
  rw [Ideal.log_coe, if_neg (not_le.2 hd0), ← coe_sum_univ, ← coe_sum_univ, ← EReal.coe_mul, ← EReal.coe_sub]
  congr 1
  rw [Finset.sum_sub_distrib, Finset.sum_const, Finset.card_univ, Fintype.card_fin, nsmul_eq_mul]

/-- The reciprocal temperature is a real. -/
theorem isReal_invTemp : IsReal invTemp := ⟨_, rfl⟩

/-- A logit of real rows is a real. -/
theorem isReal_logit (g : (⟨2, ![8192, 256]⟩ : Shape).Idx → EReal) (hg : ∀ idx, IsReal (g idx)) (i j : Fin 8192) :
    IsReal (logit g i j) :=
  (IsReal.sum _ fun k _ => (hg _).mul (hg _)).mul isReal_invTemp

/-- The guard is a nonnegative real. -/
theorem isReal_guard : IsReal guard := ⟨_, word_guard⟩
theorem guard_nonneg : 0 ≤ guard := by
  unfold Cert.Contrastive.guard; rw [word_guard]; exact_mod_cast (by norm_num : (0 : ℝ) ≤ 8796093 / 8796093022208)

/-- The mean over all pairs of the pairwise losses of real rows is the specification's mean loss. -/
theorem meanLoss_eq (g : (⟨2, ![8192, 256]⟩ : Shape).Idx → EReal) (hg : ∀ idx, IsReal (g idx)) :
    Ideal.div (∑ i : Fin 8192, ∑ j : Fin 8192,
        -(Ideal.log (Ideal.div (Ideal.exp (logit g i j)) ((∑ k : Fin 8192, Ideal.exp (logit g i k)) + guard)))) pairs
      = meanLoss g := by
  unfold meanLoss rowLoss rowDenom
  refine congrArg (Ideal.div · pairs) (Finset.sum_congr rfl fun i _ => ?_)
  rw [row_law (by decide) (fun j => logit g i j) (fun j => isReal_logit g hg i j) guard isReal_guard guard_nonneg]
  unfold Cert.Contrastive.count
  rw [word_count]
  norm_num

end Cert.ReferenceIdeal.RefValue

end
-- ==== Proof.RefSide.lean ====
import proofs.«159952_j47364899340365_2_alg».proof.Defs
import proofs.«159952_j47364899340365_2_alg».proof.Proof.Gen.ReferenceIdeal.Run
import proofs.«159952_j47364899340365_2_alg».proof.Proof.Gen.ReferenceIdeal.Read
import proofs.«159952_j47364899340365_2_alg».proof.Proof.Spec
import proofs.«159952_j47364899340365_2_alg».proof.Proof.RefConsts
import proofs.«159952_j47364899340365_2_alg».proof.Proof.RefDecode
import proofs.«159952_j47364899340365_2_alg».proof.Proof.RefRows
import proofs.«159952_j47364899340365_2_alg».proof.Proof.RowLaw
/-
  The reference's result is the specification's mean loss of its normalised rows: with all labels equal the mask is
  one everywhere, a logit is the inner product of two normalised rows divided by the temperature, and the mean over all
  pairs of − log (exp l(i,j) / (Σ_k exp l(i,k) + ε)) is the grouped form by the row law.
-/

noncomputable section

open scoped BigOperators

namespace Cert.ReferenceIdeal.RefValue

open Cert.ReferenceIdeal Idealize.ShloMosaic Idealize.ShloMosaic.ValueIdx Cert.Lib.IdealSums Cert.Contrastive

/-- With all flattened labels equal, the same-label mask is one at every pair. -/
theorem mask_one
    (x1 : (⟨S2x64x64, .i32⟩ : BufTy).Contents (Elt Ideal))
    (hl : ∀ (hsc : S2x64x64.ShapeCasts S8192) (a b : Fin 8192),
      (shapeCast S8192 x1 hsc) (ix1 a) = (shapeCast S8192 x1 hsc) (ix1 b))
    (i j : Fin 8192) : Cert.ReferenceIdeal.Read.val_main_v8 (F := Ideal) x1 (ix2 i j) = 1 := by
  have e : Cert.ReferenceIdeal.Read.val_main_v7 (F := Ideal) x1 (ix2 i j) = 1#1 := by
    rw [Read.val_main_v7_apply, Read.val_main_v5_apply, Read.val_main_v3_apply, Read.val_main_v6_apply,
      Read.val_main_v4_apply]
    refine IntOp.cmpi_eq.2 ?_
    have ea : Read.idx_main_v3 (Read.idx_main_v5 (ix2 i j)) = ix1 i :=
      funext fun a => Fin.ext (by match a with | ⟨0, _⟩ => rfl)
    have eb : Read.idx_main_v4 (Read.idx_main_v6 (ix2 i j)) = ix1 j :=
      funext fun a => Fin.ext (by match a with | ⟨0, _⟩ => rfl)
    rw [ea, eb]
    unfold Read.val_main_v2
    exact hl _ i j
  rw [Read.val_main_v8_apply, e]
  show ((((1#1 : BitVec 1).toNat : ℕ) : ℝ) : EReal) = 1
  norm_num

/-- The reference's logit of the pair (i, j) is the specification's: dividing by the temperature word is multiplying
    by its reciprocal. -/
theorem logit_read
    (x0 : (⟨S2x256x64x64, .f32⟩ : BufTy).Contents (Elt Ideal)) (i j : Fin 8192) :
    Cert.ReferenceIdeal.Read.val_main_v17 (F := Ideal) x0 (ix2 i j)
      = logit (Cert.ReferenceIdeal.Read.val_main_v13 (F := Ideal) x0) i j := by
  rw [Read.val_main_v17_apply, Read.val_main_v15_apply, Read.val_main_v16_apply, Read.val_main_cst_0_apply]
  simp only [Ideal.hostDivf_def, Ideal.ofBits_def, Read.val_main_v14_apply]
  rw [word_temperature, Ideal.div_coe (by norm_num)]
  unfold logit invTemp
  have el : ∀ k, Read.lidx_main_v15 (ix2 i j) k = ix2 i k := fun k =>
    funext fun a => Fin.ext (by match a with | ⟨0, _⟩ => rfl | ⟨1, _⟩ => rfl)
  have er : ∀ k, Read.idx_main_v14 (Read.ridx_main_v15 (ix2 i j) k) = ix2 j k := fun k =>
    funext fun a => Fin.ext (by match a with | ⟨0, _⟩ => rfl | ⟨1, _⟩ => rfl)
  simp only [el, er]
  rw [show (1 / (13421773 / 134217728) : ℝ) = 134217728 / 13421773 by norm_num]

/-- The reference's result is the mean loss of its normalised rows. -/
theorem result_eq
    (x0 : (⟨S2x256x64x64, .f32⟩ : BufTy).Contents (Elt Ideal))
    (x1 : (⟨S2x64x64, .i32⟩ : BufTy).Contents (Elt Ideal))
    (hx : ∀ i, ∃ r : ℝ, x0 i = (r : EReal))
    (hl : ∀ (hsc : S2x64x64.ShapeCasts S8192) (a b : Fin 8192),
      (shapeCast S8192 x1 hsc) (ix1 a) = (shapeCast S8192 x1 hsc) (ix1 b)) :
    Cert.ReferenceIdeal.Read.val_main_v29 (F := Ideal) x0 x1
      = fun _ => Cert.Contrastive.meanLoss (Cert.ReferenceIdeal.Read.val_main_v13 (F := Ideal) x0) := by
  funext ix
  have hg := rows_real x0 hx
  have h19 : ∀ i j : Fin 8192, Cert.ReferenceIdeal.Read.val_main_v19 (F := Ideal) x0 x1 (ix2 i j)
      = Ideal.exp (logit (Cert.ReferenceIdeal.Read.val_main_v13 (F := Ideal) x0) i j) := by
    intro i j
    rw [Read.val_main_v19_apply, Read.val_main_v18_apply, logit_read, mask_one x1 hl]
    simp only [Ideal.mulf_def, Ideal.hostUnary_exp_def, mul_one]
  have h24 : ∀ i j : Fin 8192, Cert.ReferenceIdeal.Read.val_main_v24 (F := Ideal) x0 x1 (ix2 i j)
      = (∑ k : Fin 8192, Ideal.exp (logit (Cert.ReferenceIdeal.Read.val_main_v13 (F := Ideal) x0) i k))
        + Cert.Contrastive.guard := by
    intro i j
    rw [Read.val_main_v24_apply, Read.val_main_v23_apply, Read.val_main_v21_apply, Read.val_main_v20_apply,
      Read.val_main_v22_apply, Read.val_main_cst_2_apply, Read.val_main_cst_1_apply]
    simp only [Ideal.addf_def, Ideal.ofBits_def, Ideal.ofBits_zero_f32, zero_add]
    have e : ∀ k, Read.idx_main_v20 (Read.idx_main_v21 (Read.idx_main_v24 (ix2 i j))) k = ix2 i k := fun k =>
      funext fun a => Fin.ext (by match a with | ⟨0, _⟩ => rfl | ⟨1, _⟩ => rfl)
    simp only [e, h19]
    rfl
  have h27 : ∀ i j : Fin 8192, Cert.ReferenceIdeal.Read.val_main_v27 (F := Ideal) x0 x1 (ix2 i j)
      = -(Ideal.log (Ideal.div (Ideal.exp (logit (Cert.ReferenceIdeal.Read.val_main_v13 (F := Ideal) x0) i j))
          ((∑ k : Fin 8192, Ideal.exp (logit (Cert.ReferenceIdeal.Read.val_main_v13 (F := Ideal) x0) i k))
            + Cert.Contrastive.guard))) := by
    intro i j
    rw [Read.val_main_v27_apply, Read.val_main_v26_apply, Read.val_main_v25_apply, h19, h24]
    simp only [Ideal.hostNegf_def, Ideal.negf_def, Ideal.hostUnary_log_def, Ideal.hostDivf_def]
  rw [Read.val_main_v29_apply, Read.val_main_v28_apply, Read.val_main_cst_3_apply, Read.val_main_cst_4_apply]
  simp only [Ideal.hostDivf_def, Ideal.ofBits_def, Ideal.ofBits_zero_f32, zero_add]
  rw [sum_idx2]
  simp only [h27]
  exact meanLoss_eq _ hg

end Cert.ReferenceIdeal.RefValue

end
-- ==== Proof.KernelHost.lean ====
/-
  The host operations of the kernel's program at the ideal values: the operations before the kernel region produce
  the reference's normalised rows and the flat labels as a column and as a row; the operations after it take the sum
  of the stored column and divide by the number of pairs.
-/
import proofs.«159952_j47364899340365_2_alg».proof.Proof.Gen.KernelIdeal.Launch
import proofs.«159952_j47364899340365_2_alg».proof.Proof.RefSide
import Idealize.ShloMosaic.Lib.StableHlo.Run

noncomputable section

open scoped BigOperators

namespace Cert.KernelIdeal.HostValue

open Cert.KernelIdeal Cert.KernelIdeal.Gen Idealize.ShloMosaic Idealize.ShloMosaic.ValueIdx

/-- The sum of a column from the zero word, divided by the pairs word: the column's entries added up over the number
    of pairs. -/
theorem total_div (y0 : (⟨2, ![8192, 1]⟩ : Shape).Idx → EReal) (ix : S_.Idx) :
    Host.divf (F := Ideal) (Host.reduceAdd (F := Ideal) (φ := .f32) y0 (constant (F := Ideal) S_ .f32 0x00000000#32)
        reducesTo_S8192x1_S_d0_1 h_S_) (constant (F := Ideal) S_ .f32 0x4C800000#32) ix
      = Ideal.div (∑ i : Fin 8192, y0 (ix2 i 0)) Cert.Contrastive.pairs := by
  show Ideal.div (Host.reduceAdd (F := Ideal) (φ := .f32) y0 (constant (F := Ideal) S_ .f32 0x00000000#32)
    reducesTo_S8192x1_S_d0_1 h_S_ ix) (Ideal.ofBits .f32 0x4C800000#32) = _
  simp only [Host.reduceAdd, Ideal.hostReduceAdd_def]
  rw [Ideal.hostReduceAdd_total reducesTo_S8192x1_S_d0_1 (fun b => b.elim0) y0 _ ix]
  show Ideal.div (Ideal.ofBits .f32 0x00000000#32 + ∑ i, y0 i) (Ideal.ofBits .f32 0x4C800000#32) = _
  rw [Ideal.ofBits_zero_f32, zero_add, sum_idx2]
  refine congrArg (Ideal.div · _) (Finset.sum_congr rfl fun a _ => ?_)
  exact Fin.sum_univ_one _

/-- After the region: the scalar result is the sum of the stored column divided by the number of pairs. -/
theorem tail_value (W4 : Valuation τ sig (Elt Ideal)) :
    StableHlo.after (hostOps1 (F := Ideal)) W4 (Proc.devRef .tc main_v13)
      = fun _ => Ideal.div (∑ i : Fin 8192, (W4 (Proc.devRef .tc main_v11) : (⟨2, ![8192, 1]⟩ : Shape).Idx → EReal) (ix2 i 0))
          Cert.Contrastive.pairs := by
  have e : StableHlo.after (hostOps1 (F := Ideal)) W4 (Proc.devRef .tc main_v13)
      = Host.divf (F := Ideal) (Host.reduceAdd (F := Ideal) (W4 (Proc.devRef .tc main_v11) : (⟨S8192x1, .f32⟩ : BufTy).Contents (Elt Ideal))
          (constant (F := Ideal) S_ .f32 0x00000000#32) reducesTo_S8192x1_S_d0_1 h_S_)
          (constant (F := Ideal) S_ .f32 0x4C800000#32) := by
    after_results
  rw [e]
  funext ix
  exact total_div _ ix

/-- Before the region: the rows handed to the kernel are the reference's normalised rows (the narrowing to the
    16-bit format is the identity on extended reals). -/
theorem entry_rows (W : Valuation τ sig (Elt Ideal)) :
    (StableHlo.after (hostOps0_2 (F := Ideal)) (StableHlo.after (hostOps0_1 (F := Ideal))
        (StableHlo.after (hostOps0 (F := Ideal)) W)) (Proc.devRef .tc main_v8) : (⟨2, ![8192, 256]⟩ : Shape).Idx → EReal)
      = Cert.ReferenceIdeal.Read.val_main_v13 (F := Ideal) (W (Proc.devRef .tc main_arg0)) := by
  after_results
  rfl

/-- Before the region: the labels as a column read, at row i, the flat label i. -/
theorem entry_row_labels_apply (W : Valuation τ sig (Elt Ideal)) (i : Fin 8192) :
    (StableHlo.after (hostOps0_2 (F := Ideal)) (StableHlo.after (hostOps0_1 (F := Ideal))
        (StableHlo.after (hostOps0 (F := Ideal)) W)) (Proc.devRef .tc main_v9) : (⟨S8192x1, .i32⟩ : BufTy).Contents (Elt Ideal))
        (ix2 i 0)
      = (shapeCast S8192 (W (Proc.devRef .tc main_arg1)) shapeCasts_S2x64x64_S8192) (ix1 i) := by
  have e : StableHlo.after (hostOps0_2 (F := Ideal)) (StableHlo.after (hostOps0_1 (F := Ideal))
        (StableHlo.after (hostOps0 (F := Ideal)) W)) (Proc.devRef .tc main_v9)
      = shapeCast S8192x1 (shapeCast S8192 (W (Proc.devRef .tc main_arg1)) shapeCasts_S2x64x64_S8192)
          shapeCasts_S8192_S8192x1 := by
    after_results
    rfl
  rw [e]
  exact shapeCast_apply _ _ (ix2 i 0) (ix1 i) (by
    rw [Shape.rowMajor_val_one, Shape.rowMajor_val_two]
    show i.val = i.val * 1 + 0
    omega)

/-- Before the region: the labels as a row read, at column j, the flat label j. -/
theorem entry_col_labels_apply (W : Valuation τ sig (Elt Ideal)) (j : Fin 8192) :
    (StableHlo.after (hostOps0_2 (F := Ideal)) (StableHlo.after (hostOps0_1 (F := Ideal))
        (StableHlo.after (hostOps0 (F := Ideal)) W)) (Proc.devRef .tc main_v10) : (⟨S1x8192, .i32⟩ : BufTy).Contents (Elt Ideal))
        (ix2 0 j)
      = (shapeCast S8192 (W (Proc.devRef .tc main_arg1)) shapeCasts_S2x64x64_S8192) (ix1 j) := by
  have e : StableHlo.after (hostOps0_2 (F := Ideal)) (StableHlo.after (hostOps0_1 (F := Ideal))
        (StableHlo.after (hostOps0 (F := Ideal)) W)) (Proc.devRef .tc main_v10)
      = shapeCast S1x8192 (shapeCast S8192 (W (Proc.devRef .tc main_arg1)) shapeCasts_S2x64x64_S8192)
          shapeCasts_S8192_S1x8192 := by
    after_results
    rfl
  rw [e]
  exact shapeCast_apply _ _ (ix2 0 j) (ix1 j) (by
    rw [Shape.rowMajor_val_one, Shape.rowMajor_val_two]
    show j.val = 0 * 8192 + j.val
    omega)

end Cert.KernelIdeal.HostValue

end
-- ==== Proof.ValueIdeal.lean ====
/-
  What the idealized kernel's program returns: the mean over all pairs, `meanLoss`, of the normalised rows.

  The closing host stretch sums the per-row column and divides by the number of pairs; the column ends, row by row, at
  `rowLoss` of the normalised rows (every block the region writes back is that function restricted to its rows, and the
  eight blocks cover the column); the normalised rows are the same chain of host operations in both programs.
-/
import proofs.«159952_j47364899340365_2_alg».proof.Proof.FrameIdeal
import proofs.«159952_j47364899340365_2_alg».proof.Proof.KernelValue
import proofs.«159952_j47364899340365_2_alg».proof.Proof.KernelHost

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The program's result, when every feature is a real number and every two positions carry the same label. -/
theorem result_value (c : Dev nD)
    (hl : ∀ (hsc : S2x64x64.ShapeCasts S8192) (a b : Fin 8192),
      (shapeCast S8192 (m ((c.tc : Thread nD τ).loc main_arg1)) hsc) (ix1 a) = (shapeCast S8192 (m ((c.tc : Thread nD τ).loc main_arg1)) hsc) (ix1 b)) :
    W5 (F := Ideal) m ρ c (Proc.devRef .tc main_v13)
      = fun _ => Cert.Contrastive.meanLoss (Cert.ReferenceIdeal.Read.val_main_v13 (F := Ideal) (m ((c.tc : Thread nD τ).loc main_arg0))) := by
  have hg : (V3 (F := Ideal) m ρ c main_v8 : (⟨2, ![8192, 256]⟩ : Shape).Idx → EReal)
      = Cert.ReferenceIdeal.Read.val_main_v13 (F := Ideal) (m ((c.tc : Thread nD τ).loc main_arg0)) :=
    Cert.KernelIdeal.HostValue.entry_rows (W0 (F := Ideal) m ρ c)
  have hrow : ∀ i : Fin 8192, (V3 (F := Ideal) m ρ c main_v9 : (⟨2, ![8192, 1]⟩ : Shape).Idx → BitVec 32) (ix2 i 0)
      = (shapeCast S8192 (m ((c.tc : Thread nD τ).loc main_arg1)) shapeCasts_S2x64x64_S8192) (ix1 i) :=
    fun i => Cert.KernelIdeal.HostValue.entry_row_labels_apply (W0 (F := Ideal) m ρ c) i
  have hcol : ∀ j : Fin 8192, (V3 (F := Ideal) m ρ c main_v10 : (⟨2, ![1, 8192]⟩ : Shape).Idx → BitVec 32) (ix2 0 j)
      = (shapeCast S8192 (m ((c.tc : Thread nD τ).loc main_arg1)) shapeCasts_S2x64x64_S8192) (ix1 j) :=
    fun j => Cert.KernelIdeal.HostValue.entry_col_labels_apply (W0 (F := Ideal) m ρ c) j
  have hcolumn := Cert.KernelIdeal.KernelValue.final_col (V3 (F := Ideal) m ρ) c _ _ hg hrow hcol (hl shapeCasts_S2x64x64_S8192)
  rw [show W5 (F := Ideal) m ρ c = StableHlo.after (hostOps1 (F := Ideal)) (W4 m ρ c) from rfl,
    Cert.KernelIdeal.HostValue.tail_value, W4_out, hcolumn]
  rfl

end Cert.KernelIdeal.Body

end
-- ==== Proof.lean ====
/-
  The certificate: the same-label contrastive loss computed row tile by row tile on the device equals the reference's
  mean over all pairs, on the extended reals.

  Both programs normalise the rows of the 8192 × 256 feature matrix by the same host operations. The kernel region then
  computes, for each row i, the grouped form 8192 · log (Σ_j exp l(i,j) + ε) − Σ_j l(i,j) of the row's losses (l(i,j) the
  inner product of rows i and j times the reciprocal temperature, the sums accumulated over eight chunks of 1024 columns),
  and the host adds the rows up and divides by 8192². The reference takes the mean over all pairs of
  − log (exp l(i,j) · mask / (Σ_j exp l(i,j) · mask + ε)). Under the precondition — every feature finite, every two positions
  carrying the same label, so the mask is all ones — every l(i,j) is a real number and − log (e^l / d) = log d − l, which
  makes the two results one number. The kernel's multiplication by the reciprocal temperature is the reference's
  division by the temperature because the reciprocal is read as the exact reciprocal of the temperature's word.

  The frames: each program runs to the end without a fault and leaves its two arguments as launched; the kernel's
  is followed stretch by stretch through the host operations and the kernel region (whose feature-matrix operand is read
  through two windows at half shares).
-/
import proofs.«159952_j47364899340365_2_alg».proof.Defs
import proofs.«159952_j47364899340365_2_alg».proof.Proof.FrameBits
import proofs.«159952_j47364899340365_2_alg».proof.Proof.ValueIdeal
import proofs.«159952_j47364899340365_2_alg».proof.Proof.RefSide
import proofs.«159952_j47364899340365_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reciprocal temperature's name denotes the exact reciprocal of the temperature's word, at each of its eight uses. -/
theorem named_stmt : IdealRules.named_const.Statement Cert.KernelIdeal.κ "inv_temperature" .f32 0x41200000#32 ((134217728 / 13421773 : ℝ) : EReal) :=
  IdealRules.named_const.statement Cert.KernelIdeal.κ "inv_temperature" .f32 0x41200000#32 ((134217728 / 13421773 : ℝ) : EReal) rfl

theorem preserves : Cert.preserves_Kernel_KernelIdeal :=
  ⟨named_stmt, named_stmt, named_stmt, named_stmt, named_stmt, named_stmt, named_stmt, named_stmt⟩

/-- From memories agreeing on the arguments both idealized programs end at the mean loss of the normalised rows. -/
theorem algebraic : Cert.algebraic_KernelIdeal_ReferenceIdeal := by
  intro m ρ m' ρ' hpre hagree
  have hdec := fun c => Cert.ReferenceIdeal.RefValue.decode _ _ (hpre c)
  refine ⟨fun c => fun _ => Cert.Contrastive.meanLoss (Cert.ReferenceIdeal.Read.val_main_v13 (F := Ideal)
      (m ((c.tc : Thread Cert.KernelIdeal.nD Cert.KernelIdeal.τ).loc Cert.KernelIdeal.main_arg0))), ?_, ?_⟩
  · refine (θ_run Cert.KernelIdeal.defs _ _).mono (fun r h c => ⟨?_, ?_, ?_⟩) (Cert.KernelIdeal.Body.run_all (F := Ideal) m ρ)
    · exact (h c _ (Cert.KernelIdeal.Body.mem_uc Cert.KernelIdeal.main_v13 (by decide))).trans
        (Cert.KernelIdeal.Body.result_value m ρ c (hdec c).2)
    · exact (h c _ (Cert.KernelIdeal.Body.mem_uc Cert.KernelIdeal.main_arg0 (by decide))).trans (Cert.KernelIdeal.Body.W5_main_arg0 m ρ c)
    · exact (h c _ (Cert.KernelIdeal.Body.mem_uc Cert.KernelIdeal.main_arg1 (by decide))).trans (Cert.KernelIdeal.Body.W5_main_arg1 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v29_eq, (hagree c).1, (hagree c).2,
      Cert.ReferenceIdeal.RefValue.result_eq _ _ (hdec c).1 (hdec c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
